-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S100000x64 : Shape := ⟨2, ![100000, 64]⟩
abbrev S64x64 : Shape := ⟨2, ![64, 64]⟩
abbrev S64 : Shape := ⟨1, ![64]⟩
abbrev S1000000x1 : Shape := ⟨2, ![1000000, 1]⟩
abbrev S1000000 : Shape := ⟨1, ![1000000]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1000000x1 : S_.BroadcastsInDim S1000000x1 (![] : Fin 0 → Fin S1000000x1.rank)
  reducesTo_S1000000x1_S_d0_1 : S1000000x1.ReducesTo [0, 1] S_

variable [Facts]

def fn_part2 {F : FTy → Type} [FloatOps F] (main_arg7 : FVec F S1000000x1 .f32) (main_v33 : IVec S_ 1) : IVec S_ 1 :=
  let main_v34 : FVec F S1000000x1 .f32 := Host.absf main_arg7
  let main_cst_12 : FVec F S_ .f32 := constant S_ .f32 0x7F800000#32
  let main_v35 : FVec F S1000000x1 .f32 := broadcastInDim S1000000x1 ![] bcast_S_S1000000x1 main_cst_12
  let main_v36 : IVec S1000000x1 1 := cmpf .olt main_v34 main_v35
  let main_c_13 : IVec S_ 1 := constantI S_ 1 1#1
  let main_v37 : IVec S_ 1 := (fun x v => Host.reduce IntOp.andi x v reducesTo_S1000000x1_S_d0_1 h_S_) main_v36 main_c_13
  let main_v38 : IVec S_ 1 := andi main_v33 main_v37
  main_v38

def fn_part1 {F : FTy → Type} [FloatOps F] (main_arg4 : FVec F S64x64 .f32) (main_arg5 : FVec F S64 .f32) (main_arg6 : FVec F S1000000x1 .f32) (main_arg7 : FVec F S1000000x1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S1000000x1 .f32 := Host.absf main_arg6
  let main_cst_10 : FVec F S_ .f32 := constant S_ .f32 0x7F800000#32
  let main_v30 : FVec F S1000000x1 .f32 := broadcastInDim S1000000x1 ![] bcast_S_S1000000x1 main_cst_10
  let main_v31 : IVec S1000000x1 1 := cmpf .olt main_v29 main_v30
  let main_c_11 : IVec S_ 1 := constantI S_ 1 1#1
  let main_v32 : IVec S_ 1 := (fun x v => Host.reduce IntOp.andi x v reducesTo_S1000000x1_S_d0_1 h_S_) main_v31 main_c_11
  let main_v33 : IVec S_ 1 := andi main_v28 main_v32
  fn_part2 (F := F) main_arg7 main_v33

def fn {F : FTy → Type} [FloatOps F] (main_arg0 : FVec F S200000x64 .f32) (main_arg1 : FVec F S100000x64 .f32) (main_arg2 : FVec F S64x64 .f32) (main_arg3 : FVec F S64 .f32) (main_arg4 : FVec F S64x64 .f32) (main_arg5 : FVec F S64 .f32) (main_arg6 : FVec F S1000000x1 .f32) (main_arg7 : FVec F S1000000x1 .f32) (main_arg8 : IVec S1000000 32) (main_arg9 : IVec S1000000 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S200000x64 : Shape := ⟨2, ![200000, 64]⟩
abbrev S100000x64 : Shape := ⟨2, ![100000, 64]⟩
abbrev S64x64 : Shape := ⟨2, ![64, 64]⟩
abbrev S64 : Shape := ⟨1, ![64]⟩
abbrev S1000000x1 : Shape := ⟨2, ![1000000, 1]⟩
abbrev S1000000 : Shape := ⟨1, ![1000000]⟩
abbrev S1x64 : Shape := ⟨2, ![1, 64]⟩
abbrev S10000x64 : Shape := ⟨2, ![10000, 64]⟩
abbrev S_ : Shape := ⟨0, ![]⟩
abbrev S1000000x64 : Shape := ⟨2, ![1000000, 64]⟩
abbrev S4000x64 : Shape := ⟨2, ![4000, 64]⟩
abbrev S4000x1 : Shape := ⟨2, ![4000, 1]⟩
abbrev S10000 : Shape := ⟨1, ![10000]⟩
abbrev S10000x1 : Shape := ⟨2, ![10000, 1]⟩
abbrev S300000x64 : Shape := ⟨2, ![300000, 64]⟩

abbrev nBuf : Space → Nat
  | .hbm => 57
  | .vmem => 36
  | .smem => 0
  | _ => 0

abbrev bufTy : (tb : Table) → Fin (tcTables nBuf tb) → BufTy
  | .hbm, ⟨0, _⟩ => ⟨S200000x64, .f32⟩
  | .hbm, ⟨1, _⟩ => ⟨S100000x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1000000x1, .f32⟩
  | .hbm, ⟨7, _⟩ => ⟨S1000000x1, .f32⟩
  | .hbm, ⟨8, _⟩ => ⟨S1000000, .i32⟩
  | .hbm, ⟨9, _⟩ => ⟨S1000000, .i32⟩
  | .hbm, ⟨10, _⟩ => ⟨S64x64, .f32⟩
  | .hbm, ⟨11, _⟩ => ⟨S64x64, .bf16⟩
  | .hbm, ⟨12, _⟩ => ⟨S1x64, .f32⟩
  | .hbm, ⟨13, _⟩ => ⟨S200000x64, .f32⟩
  | .hbm, ⟨14, _⟩ => ⟨S64x64, .f32⟩
  | .hbm, ⟨15, _⟩ => ⟨S64x64, .bf16⟩
  | .hbm, ⟨16, _⟩ => ⟨S1x64, .f32⟩
  | .hbm, ⟨17, _⟩ => ⟨S100000x64, .f32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x64, .f32⟩
  | .hbm, ⟨27, _⟩ => ⟨S_, .i32⟩
  | .hbm, ⟨28, _⟩ => ⟨S1000000, .i32⟩
  | .hbm, ⟨29, _⟩ => ⟨S1000000, .i1⟩
  | .hbm, ⟨30, _⟩ => ⟨S_, .i32⟩
  | .hbm, ⟨31, _⟩ => ⟨S1000000, .i32⟩
  | .hbm, ⟨32, _⟩ => ⟨S1000000, .i32⟩
  | .hbm, ⟨33, _⟩ => ⟨S1000000, .i32⟩
  | .hbm, ⟨34, _⟩ => ⟨S1000000x1, .i32⟩
  | .hbm, ⟨35, _⟩ => ⟨S1000000x64, .f32⟩
  | .hbm, ⟨36, _⟩ => ⟨S64x64, .f32⟩
  | .hbm, ⟨37, _⟩ => ⟨S64x64, .bf16⟩
  | .hbm, ⟨38, _⟩ => ⟨S64x64, .f32⟩
  | .hbm, ⟨39, _⟩ => ⟨S64x64, .bf16⟩
  | .hbm, ⟨40, _⟩ => ⟨S1x64, .f32⟩
  | .hbm, ⟨41, _⟩ => ⟨S1x64, .f32⟩
  | .hbm, ⟨42, _⟩ => ⟨S1000000x64, .f32⟩
  | .hbm, ⟨43, _⟩ => ⟨S1000000x64, .f32⟩
  | .hbm, ⟨44, _⟩ => ⟨S_, .f32⟩
  | .hbm, ⟨45, _⟩ => ⟨S100000x64, .f32⟩
  | .hbm, ⟨46, _⟩ => ⟨S1000000x1, .i32⟩
  | .hbm, ⟨47, _⟩ => ⟨S100000x64, .f32⟩
  | .hbm, ⟨48, _⟩ => ⟨S100000x64, .f32⟩
  | .hbm, ⟨49, _⟩ => ⟨S_, .f32⟩
  | .hbm, ⟨50, _⟩ => ⟨S200000x64, .f32⟩
  | .hbm, ⟨51, _⟩ => ⟨S1000000x1, .i32⟩
  | .hbm, ⟨52, _⟩ => ⟨S200000x64, .f32⟩
  | .hbm, ⟨53, _⟩ => ⟨S200000x64, .f32⟩
  | .hbm, ⟨54, _⟩ => ⟨S200000x64, .f32⟩
  | .hbm, ⟨55, _⟩ => ⟨S100000x64, .f32⟩
  | .hbm, ⟨56, _⟩ => ⟨S300000x64, .f32⟩
  | .local _ .vmem, ⟨0, _⟩ => ⟨S10000x64, .f32⟩
  | .local _ .vmem, ⟨1, _⟩ => ⟨S10000x64, .f32⟩
  | .local _ .vmem, ⟨2, _⟩ => ⟨S64x64, .bf16⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .bf16⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x1, .f32⟩
  | .local _ .vmem, ⟨17, _⟩ => ⟨S4000x1, .f32⟩
  | .local _ .vmem, ⟨18, _⟩ => ⟨S4000x1, .f32⟩
  | .local _ .vmem, ⟨19, _⟩ => ⟨S4000x1, .f32⟩
  | .local _ .vmem, ⟨20, _⟩ => ⟨S64x64, .bf16⟩
  | .local _ .vmem, ⟨21, _⟩ => ⟨S1x64, .f32⟩
  | .local _ .vmem, ⟨22, _⟩ => ⟨S64x64, .bf16⟩
  | .local _ .vmem, ⟨23, _⟩ => ⟨S1x64, .f32⟩
  | .local _ .vmem, ⟨24, _⟩ => ⟨S4000x64, .f32⟩
  | .local _ .vmem, ⟨25, _⟩ => ⟨S4000x64, .f32⟩
  | .local _ .vmem, ⟨26, _⟩ => ⟨S4000x64, .f32⟩
  | .local _ .vmem, ⟨27, _⟩ => ⟨S4000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28_0 : Ref sig .tc := ⟨.hbm, 42, rfl⟩
abbrev main_v28_1 : Ref sig .tc := ⟨.hbm, 43, rfl⟩
abbrev main_cst : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg8_1 : Ref sig .tc := ⟨.vmem, 25, rfl⟩
abbrev cc2_stg9_0 : Ref sig .tc := ⟨.vmem, 26, rfl⟩
abbrev cc2_stg9_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem8_1 : DmaSem sig := 25
abbrev cc2_sem9_0 : DmaSem sig := 26
abbrev cc2_sem9_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc4_sem0_0 : DmaSem sig := 32
abbrev cc4_sem0_1 : DmaSem sig := 33
abbrev cc4_sem1_0 : DmaSem sig := 34
abbrev cc4_sem1_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x64 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S4000x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S4000x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

class Facts₀ : Prop where
  transposes_S64x64_S64x64_1_0 : S64x64.Transposes [1, 0] S64x64
  bitsLt_bf16_f32 : FTy.bits .bf16 < FTy.bits .f32
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S1000000 : S_.BroadcastsInDim S1000000 (![] : Fin 0 → Fin S1000000.rank)
  bcast_S1000000_S1000000x1_0 : S1000000.BroadcastsInDim S1000000x1 (![0] : Fin 1 → Fin S1000000x1.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S1x64_S4000x64 : S1x64.Broadcasts S4000x64
  inb_S4000x1_S4000x1_0_0 : ∀ a, (![0, 0] : Fin 2 → Nat) a + S4000x1.size a ≤ S4000x1.size a
  h_S4000x1 : 0 < S4000x1.numel
  broadcasts_S4000x1_S4000x64 : S4000x1.Broadcasts S4000x64
  bcast_S_S100000x64 : S_.BroadcastsInDim S100000x64 (![] : Fin 0 → Fin S100000x64.rank)
  bcast_S_S200000x64 : S_.BroadcastsInDim S200000x64 (![] : Fin 0 → Fin S200000x64.rank)
  shapeCasts_S10000x64_S10000x64 : S10000x64.ShapeCasts S10000x64
  reduces_S10000x64_S10000 : S10000x64.Reduces [1] S10000
  shapeCasts_S10000_S10000x1 : S10000.ShapeCasts S10000x1
  broadcasts_S10000x1_S10000x64 : S10000x1.Broadcasts S10000x64
  concatenates_S200000x64_S100000x64_S300000x64_d0 : Shape.Concatenates [S200000x64, S100000x64] S300000x64 0
  dot_S10000x64_S64x64_S10000x64_1_0_0_1_n_n_wf : DotDims.WF S10000x64 S64x64 S10000x64 [1] [0] [0] [1] [] []
  gather_S200000x64_S1000000x1_S1000000x64_1_0_n_n_0_1_164_wf : GatherDims.WF S200000x64 S1000000x1 S1000000x64 [1] [0] [] [0] [] 1 ![1, 64]
  gather_S100000x64_S1000000x1_S1000000x64_1_0_n_n_0_1_164_wf : GatherDims.WF S100000x64 S1000000x1 S1000000x64 [1] [0] [] [0] [] 1 ![1, 64]
  dot_S4000x64_S64x64_S4000x64_1_0_0_1_n_n_wf : DotDims.WF S4000x64 S64x64 S4000x64 [1] [0] [0] [1] [] []
  scatter_S100000x64_S1000000x1_S1000000x64_1_0_0_1_wf : ScatterDims.WF S100000x64 S1000000x1 S1000000x64 [1] [0] [0] 1
  scatter_S200000x64_S1000000x1_S1000000x64_1_0_0_1_wf : ScatterDims.WF S200000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S200000x64.size a
  hwx0_0 : ∀ i : grid0.Coords, EltTy.bits .f32 = 32 ∨ (Rect.block (s := S200000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .bf16 = 32 ∨ (Rect.block (s := S64x64) S64x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S200000x64.size a
  hwx0_3 : ∀ i : grid0.Coords, EltTy.bits .f32 = 32 ∨ (Rect.block (s := S200000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .bf16 = 32 ∨ (Rect.block (s := S64x64) S64x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S1000000x64.size a
  hwx2_0 : ∀ i : grid2.Coords, EltTy.bits .f32 = 32 ∨ (Rect.block (s := S1000000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S1000000x64.size a
  hwx2_1 : ∀ i : grid2.Coords, EltTy.bits .f32 = 32 ∨ (Rect.block (s := S1000000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S1000000x1.size a
  hwx2_2 : ∀ i : grid2.Coords, EltTy.bits .f32 = 32 ∨ (Rect.block (s := S1000000x1) S4000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x1.size a ≤ S1000000x1.size a
  hwx2_3 : ∀ i : grid2.Coords, EltTy.bits .f32 = 32 ∨ (Rect.block (s := S1000000x1) S4000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .bf16 = 32 ∨ (Rect.block (s := S64x64) S64x64.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .bf16 = 32 ∨ (Rect.block (s := S64x64) S64x64.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4000x64.size a ≤ S1000000x64.size a
  hwx2_8 : ∀ i : grid2.Coords, EltTy.bits .f32 = 32 ∨ (Rect.block (s := S1000000x64) S4000x64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S4000x64.size a ≤ S1000000x64.size a
  hwx2_9 : ∀ i : grid2.Coords, EltTy.bits .f32 = 32 ∨ (Rect.block (s := S1000000x64) S4000x64.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S200000x64.size a
  hwx3_0 : ∀ i : grid3.Coords, EltTy.bits .f32 = 32 ∨ (Rect.block (s := S200000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S200000x64.size a
  hwx3_1 : ∀ i : grid3.Coords, EltTy.bits .f32 = 32 ∨ (Rect.block (s := S200000x64) S10000x64.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v14) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S4000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v23) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v26) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v25) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v27) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v28_0) S4000x64.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v28_1) S4000x64.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v36) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S10000x64.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v32) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v38) S10000x64.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

class Facts : Prop extends Facts₀ where

variable [Facts]
-- ==== ReferenceIdeal.lean ====
abbrev S200000x64 : Shape := ⟨2, ![200000, 64]⟩
abbrev S100000x64 : Shape := ⟨2, ![100000, 64]⟩
abbrev S64x64 : Shape := ⟨2, ![64, 64]⟩
abbrev S64 : Shape := ⟨1, ![64]⟩
abbrev S1000000x1 : Shape := ⟨2, ![1000000, 1]⟩
abbrev S1000000 : Shape := ⟨1, ![1000000]⟩
abbrev S1x64 : Shape := ⟨2, ![1, 64]⟩
abbrev S_ : Shape := ⟨0, ![]⟩
abbrev S1000000x64 : Shape := ⟨2, ![1000000, 64]⟩
abbrev S200000 : Shape := ⟨1, ![200000]⟩
abbrev S200000x1 : Shape := ⟨2, ![200000, 1]⟩
abbrev S100000 : Shape := ⟨1, ![100000]⟩
abbrev S100000x1 : Shape := ⟨2, ![100000, 1]⟩
abbrev S300000x64 : Shape := ⟨2, ![300000, 64]⟩

abbrev nBuf : Space → Nat
  | .hbm => 110
  | .vmem => 0
  | .smem => 0
  | _ => 0

abbrev bufTy : (tb : Table) → Fin (tcTables nBuf tb) → BufTy
  | .hbm, ⟨0, _⟩ => ⟨S200000x64, .f32⟩
  | .hbm, ⟨1, _⟩ => ⟨S100000x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1000000x1, .f32⟩
  | .hbm, ⟨7, _⟩ => ⟨S1000000x1, .f32⟩
  | .hbm, ⟨8, _⟩ => ⟨S1000000, .i32⟩
  | .hbm, ⟨9, _⟩ => ⟨S1000000, .i32⟩
  | .hbm, ⟨10, _⟩ => ⟨S64x64, .f32⟩
  | .hbm, ⟨11, _⟩ => ⟨S200000x64, .f32⟩
  | .hbm, ⟨12, _⟩ => ⟨S1x64, .f32⟩
  | .hbm, ⟨13, _⟩ => ⟨S200000x64, .f32⟩
  | .hbm, ⟨14, _⟩ => ⟨S200000x64, .f32⟩
  | .hbm, ⟨15, _⟩ => ⟨S64x64, .f32⟩
  | .hbm, ⟨16, _⟩ => ⟨S100000x64, .f32⟩
  | .hbm, ⟨17, _⟩ => ⟨S1x64, .f32⟩
  | .hbm, ⟨18, _⟩ => ⟨S100000x64, .f32⟩
  | .hbm, ⟨19, _⟩ => ⟨S100000x64, .f32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x64, .f32⟩
  | .hbm, ⟨29, _⟩ => ⟨S_, .i32⟩
  | .hbm, ⟨30, _⟩ => ⟨S1000000, .i32⟩
  | .hbm, ⟨31, _⟩ => ⟨S1000000, .i1⟩
  | .hbm, ⟨32, _⟩ => ⟨S_, .i32⟩
  | .hbm, ⟨33, _⟩ => ⟨S1000000, .i32⟩
  | .hbm, ⟨34, _⟩ => ⟨S1000000, .i32⟩
  | .hbm, ⟨35, _⟩ => ⟨S1000000, .i32⟩
  | .hbm, ⟨36, _⟩ => ⟨S1000000x1, .i32⟩
  | .hbm, ⟨37, _⟩ => ⟨S1000000x64, .f32⟩
  | .hbm, ⟨38, _⟩ => ⟨S1000000x64, .f32⟩
  | .hbm, ⟨39, _⟩ => ⟨S64x64, .f32⟩
  | .hbm, ⟨40, _⟩ => ⟨S1000000x64, .f32⟩
  | .hbm, ⟨41, _⟩ => ⟨S1x64, .f32⟩
  | .hbm, ⟨42, _⟩ => ⟨S1000000x64, .f32⟩
  | .hbm, ⟨43, _⟩ => ⟨S1000000x64, .f32⟩
  | .hbm, ⟨44, _⟩ => ⟨S64x64, .f32⟩
  | .hbm, ⟨45, _⟩ => ⟨S1000000x64, .f32⟩
  | .hbm, ⟨46, _⟩ => ⟨S1x64, .f32⟩
  | .hbm, ⟨47, _⟩ => ⟨S1000000x64, .f32⟩
  | .hbm, ⟨48, _⟩ => ⟨S1000000x64, .f32⟩
  | .hbm, ⟨49, _⟩ => ⟨S1000000x64, .f32⟩
  | .hbm, ⟨50, _⟩ => ⟨S1000000x64, .f32⟩
  | .hbm, ⟨51, _⟩ => ⟨S1000000x64, .f32⟩
  | .hbm, ⟨52, _⟩ => ⟨S_, .f32⟩
  | .hbm, ⟨53, _⟩ => ⟨S100000x64, .f32⟩
  | .hbm, ⟨54, _⟩ => ⟨S1000000x1, .i32⟩
  | .hbm, ⟨55, _⟩ => ⟨S100000x64, .f32⟩
  | .hbm, ⟨56, _⟩ => ⟨S100000x64, .f32⟩
  | .hbm, ⟨57, _⟩ => ⟨S64x64, .f32⟩
  | .hbm, ⟨58, _⟩ => ⟨S1000000x64, .f32⟩
  | .hbm, ⟨59, _⟩ => ⟨S1x64, .f32⟩
  | .hbm, ⟨60, _⟩ => ⟨S1000000x64, .f32⟩
  | .hbm, ⟨61, _⟩ => ⟨S1000000x64, .f32⟩
  | .hbm, ⟨62, _⟩ => ⟨S64x64, .f32⟩
  | .hbm, ⟨63, _⟩ => ⟨S1000000x64, .f32⟩
  | .hbm, ⟨64, _⟩ => ⟨S1x64, .f32⟩
  | .hbm, ⟨65, _⟩ => ⟨S1000000x64, .f32⟩
  | .hbm, ⟨66, _⟩ => ⟨S1000000x64, .f32⟩
  | .hbm, ⟨67, _⟩ => ⟨S1000000x64, .f32⟩
  | .hbm, ⟨68, _⟩ => ⟨S1000000x64, .f32⟩
  | .hbm, ⟨69, _⟩ => ⟨S1000000x64, .f32⟩
  | .hbm, ⟨70, _⟩ => ⟨S_, .f32⟩
  | .hbm, ⟨71, _⟩ => ⟨S200000x64, .f32⟩
  | .hbm, ⟨72, _⟩ => ⟨S1000000x1, .i32⟩
  | .hbm, ⟨73, _⟩ => ⟨S200000x64, .f32⟩
  | .hbm, ⟨74, _⟩ => ⟨S200000x64, .f32⟩
  | .hbm, ⟨75, _⟩ => ⟨S_, .f32⟩
  | .hbm, ⟨76, _⟩ => ⟨S200000x64, .f32⟩
  | .hbm, ⟨77, _⟩ => ⟨S200000x64, .i1⟩
  | .hbm, ⟨78, _⟩ => ⟨S_, .f32⟩
  | .hbm, ⟨79, _⟩ => ⟨S200000x64, .f32⟩
  | .hbm, ⟨80, _⟩ => ⟨S200000x64, .f32⟩
  | .hbm, ⟨81, _⟩ => ⟨S200000x64, .f32⟩
  | .hbm, ⟨82, _⟩ => ⟨S200000x64, .f32⟩
  | .hbm, ⟨83, _⟩ => ⟨S_, .f32⟩
  | .hbm, ⟨84, _⟩ => ⟨S200000, .f32⟩
  | .hbm, ⟨85, _⟩ => ⟨S200000x1, .f32⟩
  | .hbm, ⟨86, _⟩ => ⟨S200000x1, .f32⟩
  | .hbm, ⟨87, _⟩ => ⟨S_, .f32⟩
  | .hbm, ⟨88, _⟩ => ⟨S200000x1, .f32⟩
  | .hbm, ⟨89, _⟩ => ⟨S200000x1, .f32⟩
  | .hbm, ⟨90, _⟩ => ⟨S200000x64, .f32⟩
  | .hbm, ⟨91, _⟩ => ⟨S200000x64, .f32⟩
  | .hbm, ⟨92, _⟩ => ⟨S_, .f32⟩
  | .hbm, ⟨93, _⟩ => ⟨S100000x64, .f32⟩
  | .hbm, ⟨94, _⟩ => ⟨S100000x64, .i1⟩
  | .hbm, ⟨95, _⟩ => ⟨S_, .f32⟩
  | .hbm, ⟨96, _⟩ => ⟨S100000x64, .f32⟩
  | .hbm, ⟨97, _⟩ => ⟨S100000x64, .f32⟩
  | .hbm, ⟨98, _⟩ => ⟨S100000x64, .f32⟩
  | .hbm, ⟨99, _⟩ => ⟨S100000x64, .f32⟩
  | .hbm, ⟨100, _⟩ => ⟨S_, .f32⟩
  | .hbm, ⟨101, _⟩ => ⟨S100000, .f32⟩
  | .hbm, ⟨102, _⟩ => ⟨S100000x1, .f32⟩
  | .hbm, ⟨103, _⟩ => ⟨S100000x1, .f32⟩
  | .hbm, ⟨104, _⟩ => ⟨S_, .f32⟩
  | .hbm, ⟨105, _⟩ => ⟨S100000x1, .f32⟩
  | .hbm, ⟨106, _⟩ => ⟨S100000x1, .f32⟩
  | .hbm, ⟨107, _⟩ => ⟨S100000x64, .f32⟩
  | .hbm, ⟨108, _⟩ => ⟨S100000x64, .f32⟩
  | .hbm, ⟨109, _⟩ => ⟨S300000x64, .f32⟩
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_3 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_4 : Ref sig .tc := ⟨.hbm, 75, rfl⟩
abbrev main_v59 : Ref sig .tc := ⟨.hbm, 76, rfl⟩
abbrev main_v60 : Ref sig .tc := ⟨.hbm, 77, rfl⟩
abbrev main_cst_5 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_call1_v0 : Ref sig .tc := ⟨.hbm, 82, rfl⟩
abbrev main_call1_cst : Ref sig .tc := ⟨.hbm, 83, rfl⟩
abbrev main_call1_v1 : Ref sig .tc := ⟨.hbm, 84, rfl⟩
abbrev main_call1_v2 : Ref sig .tc := ⟨.hbm, 85, rfl⟩
abbrev main_v64 : Ref sig .tc := ⟨.hbm, 86, rfl⟩
abbrev main_cst_6 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_7 : Ref sig .tc := ⟨.hbm, 92, rfl⟩
abbrev main_v69 : Ref sig .tc := ⟨.hbm, 93, rfl⟩
abbrev main_v70 : Ref sig .tc := ⟨.hbm, 94, rfl⟩
abbrev main_cst_8 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_call3_v0 : Ref sig .tc := ⟨.hbm, 99, rfl⟩
abbrev main_call3_cst : Ref sig .tc := ⟨.hbm, 100, rfl⟩
abbrev main_call3_v1 : Ref sig .tc := ⟨.hbm, 101, rfl⟩
abbrev main_call3_v2 : Ref sig .tc := ⟨.hbm, 102, rfl⟩
abbrev main_v74 : Ref sig .tc := ⟨.hbm, 103, rfl⟩
abbrev main_cst_9 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S1x64_S100000x64_0_1 : S1x64.BroadcastsInDim S100000x64 (![0, 1] : Fin 2 → Fin S100000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1x64_S1000000x64_0_1 : S1x64.BroadcastsInDim S1000000x64 (![0, 1] : Fin 2 → Fin S1000000x64.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S_S200000x64 : S_.BroadcastsInDim S200000x64 (![] : Fin 0 → Fin S200000x64.rank)
  reducesTo_S200000x64_S200000_d1 : S200000x64.ReducesTo [1] S200000
  h_S_ : 0 < S_.numel
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S200000x1_S200000x64_0_1 : S200000x1.BroadcastsInDim S200000x64 (![0, 1] : Fin 2 → Fin S200000x64.rank)
  reducesTo_S100000x64_S100000_d1 : S100000x64.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  concatenates_S200000x64_S100000x64_S300000x64_d0 : Shape.Concatenates [S200000x64, S100000x64] S300000x64 0
  dot_S200000x64_S64x64_S200000x64_1_0_0_1_n_n_wf : DotDims.WF S200000x64 S64x64 S200000x64 [1] [0] [0] [1] [] []
  dot_S100000x64_S64x64_S100000x64_1_0_0_1_n_n_wf : DotDims.WF S100000x64 S64x64 S100000x64 [1] [0] [0] [1] [] []
  gather_S200000x64_S1000000x1_S1000000x64_1_0_n_n_0_1_164_wf : GatherDims.WF S200000x64 S1000000x1 S1000000x64 [1] [0] [] [0] [] 1 ![1, 64]
  gather_S100000x64_S1000000x1_S1000000x64_1_0_n_n_0_1_164_wf : GatherDims.WF S100000x64 S1000000x1 S1000000x64 [1] [0] [] [0] [] 1 ![1, 64]
  dot_S1000000x64_S64x64_S1000000x64_1_0_0_1_n_n_wf : DotDims.WF S1000000x64 S64x64 S1000000x64 [1] [0] [0] [1] [] []
  scatter_S100000x64_S1000000x1_S1000000x64_1_0_0_1_wf : ScatterDims.WF S100000x64 S1000000x1 S1000000x64 [1] [0] [0] 1
  scatter_S200000x64_S1000000x1_S1000000x64_1_0_0_1_wf : ScatterDims.WF S200000x64 S1000000x1 S1000000x64 [1] [0] [0] 1

variable [Facts₀]

def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf

class Facts : Prop extends Facts₀ where

variable [Facts]
-- ==== Proof.KRun.lean ====
/-
  The idealized kernel program's run, read at the result buffer.

  The program is ten segments: five pipelined kernel launches among five stretches of host operations. The buffers'
  contents at each segment boundary are a fold from the launch memory — a host stretch applies its operations, a launch
  replaces each of its arrays by what its write-backs leave and keeps every other buffer — and the last boundary's
  contents are `W10`. After the run every unscoped buffer holds what `W10` says (`run_all`); read at the result buffer
  and at the ten argument buffers: the result holds the concatenation the last host operation makes of the two
  epilogue launches' outputs, and each argument what it was launched with.
-/
import proofs.«131144_j6614249636664_2_alg».proof.Proof.KRunAll

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run with the result buffer and the ten argument buffers read off: the result holds `W10`'s contents at its
    buffer, each argument what it was launched with (no host operation and no launch writes an argument). -/
theorem run_result : θ_run defs (onTc (τ := τ) (main (F := F))) ⟨m, fun _ => 0, ρ⟩ (fun r => ∀ c : Dev nD,
      r.2.mem ((c.tc : Thread nD τ).loc main_v39) = W10 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨h c _ (mem_uc main_v39 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩) (run_all m ρ)

end Cert.KernelIdeal.KRun

end
-- ==== Proof.Spec.lean ====
/-
  The three array-to-array functions this layer is made of, over the extended reals, index by index.

  * `dense x wt b`: row r, column j of the dense layer is  ∑ₖ x(r,k) · wt(k,j) + b(j)  — the weight already
    transposed, so the contraction runs down its rows.
  * `message fa fu fi nrm wt₁ b₁ wt₂ b₂`: the message of edge e, column j, is
    nrm(e) · ( dense fa wt₁ b₁ (e,j) + dense (fu ⊙ fi) wt₂ b₂ (e,j) ),  ⊙ the entrywise product of the two
    gathered endpoint rows.
  * `finish h`: the leaky rectifier (slope word 0x3E4CCCCD below zero) followed by the division of each row by the
    larger of its Euclidean norm and the floor word 0x2B8CBCCC.

  Each value at row r depends on row r of its array arguments only, so a function of a block of rows is the
  restriction of the function of the whole array: the row count is a parameter.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with `n` rows and `m` columns. -/
abbrev Mat (n m : Nat) : Type := (⟨2, ![n, m]⟩ : Shape).Idx → EReal
/-- A vector of `n` extended reals. -/
abbrev Row (n : Nat) : Type := (⟨1, ![n]⟩ : Shape).Idx → EReal

/-- The transpose of a square weight: entry (k,j) of the result is entry (j,k). -/
def tr (W : Mat 64 64) : Mat 64 64 := fun i => W (ix2 (i 1) (i 0))

/-- A one-row matrix read as a vector. -/
def rowOf (v : Mat 1 64) : Row 64 := fun j => v (ix2 (0 : Fin 1) (j 0))

/-- The dense layer against an already transposed weight: ∑ₖ x(r,k) · wt(k,j) + b(j). -/
def dense {N : Nat} (x : Mat N 64) (wt : Mat 64 64) (b : Row 64) : Mat N 64 :=
  fun i => (∑ k : Fin 64, x (ix2 (i 0) k) * wt (ix2 k (i 1))) + b (ix1 (i 1))

/-- The message of an edge: its norm weight times the sum of the dense layer of one endpoint's row and the second
    dense layer of the entrywise product of both endpoints' rows. -/
def message {E : Nat} (fa fu fi : Mat E 64) (nrm : Mat E 1) (wt₁ : Mat 64 64) (b₁ : Row 64) (wt₂ : Mat 64 64) (b₂ : Row 64) :
    Mat E 64 :=
  fun i => nrm (ix2 (i 0) (0 : Fin 1)) * (dense fa wt₁ b₁ i + dense (fun j => fu j * fi j) wt₂ b₂ i)

/-- The leaky rectifier: `h` where `h ≥ 0`, the slope word times `h` elsewhere. -/
def leaky (h : EReal) : EReal :=
  Scalar.select (FloatOps.cmpf (F := Ideal) (φ := .f32) .oge h (Ideal.ofBits .f32 0x00000000#32)) h
    (Ideal.ofBits .f32 0x3E4CCCCD#32 * h)

/-- The epilogue: the rectified entry divided by the larger of the rectified row's Euclidean norm and the floor word. -/
def finish {N : Nat} (h : Mat N 64) : Mat N 64 :=
  fun i => Ideal.div (leaky (h i))
    (max (Ideal.sqrt (Ideal.ofBits .f32 0x00000000#32 + ∑ k : Fin 64, leaky (h (ix2 (i 0) k)) * leaky (h (ix2 (i 0) k))))
      (Ideal.ofBits .f32 0x2B8CBCCC#32))

end Cert.Spec

end
-- ==== Proof.SpecRows.lean ====
/-
  Row locality of the layer's three functions: the value at row r, column q depends on row r of each array
  argument only (and on the weights and biases whole). So if a block with B rows agrees with an array with N rows
  along one pair of rows (row p of the block is row r of the array), the function of the block at (p,q) is the
  function of the array at (r,q). This is what makes a tile's result the restriction of the whole result.
-/
import proofs.«131144_j6614249636664_2_alg».proof.Proof.Spec

noncomputable section

open scoped BigOperators

namespace Cert.Spec

open Idealize.ShloMosaic Idealize.ShloMosaic.ValueIdx

/-- The dense layer at (p,q) of a block is the dense layer at (r,q) of an array whose row r is the block's row p. -/
theorem dense_row {B N : Nat} (x : Mat B 64) (X : Mat N 64) (wt wt' : Mat 64 64) (b b' : Row 64) (p : Fin B) (r : Fin N)
    (q : Fin 64) (hx : ∀ k : Fin 64, x (ix2 p k) = X (ix2 r k)) (hw : wt = wt') (hb : b = b') :
    dense x wt b (ix2 p q) = dense X wt' b' (ix2 r q) := by
  subst hw hb
  show (∑ k : Fin 64, x (ix2 p k) * wt (ix2 k q)) + b (ix1 q) = (∑ k : Fin 64, X (ix2 r k) * wt (ix2 k q)) + b (ix1 q)
  rw [Finset.sum_congr rfl fun k _ => by rw [hx k]]

/-- The message at (p,q) of a block of edges is the message at (r,q) of the edge arrays whose row r is the block's row p. -/
theorem message_row {B E : Nat} (fa fu fi : Mat B 64) (Fa Fu Fi : Mat E 64) (nrm : Mat B 1) (Nrm : Mat E 1)
    (wt₁ wt₁' : Mat 64 64) (b₁ b₁' : Row 64) (wt₂ wt₂' : Mat 64 64) (b₂ b₂' : Row 64) (p : Fin B) (r : Fin E) (q : Fin 64)
    (ha : ∀ k : Fin 64, fa (ix2 p k) = Fa (ix2 r k)) (hu : ∀ k : Fin 64, fu (ix2 p k) = Fu (ix2 r k))
    (hi : ∀ k : Fin 64, fi (ix2 p k) = Fi (ix2 r k)) (hn : nrm (ix2 p (0 : Fin 1)) = Nrm (ix2 r (0 : Fin 1)))
    (hw₁ : wt₁ = wt₁') (hb₁ : b₁ = b₁') (hw₂ : wt₂ = wt₂') (hb₂ : b₂ = b₂') :
    message fa fu fi nrm wt₁ b₁ wt₂ b₂ (ix2 p q) = message Fa Fu Fi Nrm wt₁' b₁' wt₂' b₂' (ix2 r q) := by
  show nrm (ix2 p (0 : Fin 1)) * (dense fa wt₁ b₁ (ix2 p q) + dense (fun j => fu j * fi j) wt₂ b₂ (ix2 p q))
    = Nrm (ix2 r (0 : Fin 1)) * (dense Fa wt₁' b₁' (ix2 r q) + dense (fun j => Fu j * Fi j) wt₂' b₂' (ix2 r q))
  rw [hn, dense_row fa Fa wt₁ wt₁' b₁ b₁' p r q ha hw₁ hb₁,
    dense_row (fun j => fu j * fi j) (fun j => Fu j * Fi j) wt₂ wt₂' b₂ b₂' p r q (fun k => by rw [hu k, hi k]) hw₂ hb₂]

/-- The epilogue at (p,q) of a block is the epilogue at (r,q) of an array whose row r is the block's row p. -/
theorem finish_row {B N : Nat} (h : Mat B 64) (H : Mat N 64) (p : Fin B) (r : Fin N) (q : Fin 64)
    (hh : ∀ k : Fin 64, h (ix2 p k) = H (ix2 r k)) :
    finish h (ix2 p q) = finish H (ix2 r q) := by
  show Ideal.div (leaky (h (ix2 p q)))
      (max (Ideal.sqrt (Ideal.ofBits .f32 0x00000000#32 + ∑ k : Fin 64, leaky (h (ix2 p k)) * leaky (h (ix2 p k))))
        (Ideal.ofBits .f32 0x2B8CBCCC#32))
    = Ideal.div (leaky (H (ix2 r q)))
      (max (Ideal.sqrt (Ideal.ofBits .f32 0x00000000#32 + ∑ k : Fin 64, leaky (H (ix2 r k)) * leaky (H (ix2 r k))))
        (Ideal.ofBits .f32 0x2B8CBCCC#32))
  rw [hh q, Finset.sum_congr rfl fun k _ => by rw [hh k]]

end Cert.Spec

end
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.Bodies.lean ====
/-
  The value each kernel body stores is the specification's function of the block of rows the body loaded.

  * Dense body.  At row r, column c the matrix unit, accumulating into the zero splat, gives the sum over the
    contraction index of (narrowed x)(r,k) · w(k,c); the narrowing cast is the identity on extended reals, the
    contraction index of a one-axis contraction is its single coordinate k < 64, and the added [1,64] bias broadcast
    over the rows reads b(0,c).  That is  ∑ₖ x(r,k) · w(k,c) + b(c),  the specification's dense layer.
  * Edge body.  Both stored messages are  (norm column broadcast over the 64 lanes) · (dense layer of one endpoint's
    rows + dense layer of the entrywise product of the two endpoints' rows); the [n,1] → [n,64] broadcast reads
    nrm(r,0), and each dense summand is the dense body above.
  * Epilogue body.  The compare-and-select is the leaky rectifier entry by entry; the lane reduction from the zero
    word at row r is  ∑ₖ y(r,k)²  over k < 64 (y the rectified block), the zero word being the real 0; the cast
    [n] → [n,1] and the broadcast [n,1] → [n,64] only re-index by the row; square root, maximum with the floor word and
    the division are entrywise.  That is the specification's epilogue.

  Every step is taken at ONE symbolic index (r, c); no array and no literal is evaluated.
-/
import proofs.«131144_j6614249636664_2_alg».proof.Proof.Gen.KernelIdeal.Skeleton
import proofs.«131144_j6614249636664_2_alg».proof.Proof.Spec
import proofs.«131144_j6614249636664_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Bodies

open Cert.KernelIdeal Cert.KernelIdeal.Gen Idealize.ShloMosaic Idealize.ShloMosaic.ValueIdx

/-! ## Re-indexing lemmas: one column broadcast over lanes, a vector read as one column, a lane sum -/

/-- An [a, 1] array broadcast to [a, b] reads, at (p, c), the operand's row p (its one column). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] array cast to [a, 1] reads, at (p, u), the operand at p, whatever the unit coordinate u: both row-major
    positions are p. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum over the second axis of an [n, m] array, read at row p: the sum over k < m of the entries (p, k) — the
    reduced index with k inserted on the dropped axis is (p, k). -/
theorem laneSum_apply {n m : ℕ} (v : FVec Ideal ⟨2, ![n, m]⟩ .f32) (acc : BitVec (FTy.bits .f32))
    (h : (⟨2, ![n, m]⟩ : Shape).Reduces [1] ⟨1, ![n]⟩) (hφ : FKind.Formats .f32)
    (hacc : acc = FKind.add.neutral .f32 hφ) (p : Fin n) :
    multiReduction (F := Ideal) .add [1] ⟨1, ![n]⟩ v acc h hφ hacc (ix1 p) = ∑ k : Fin m, v (ix2 p k) := by
  refine (Ideal.multiReduction_add_single v acc h hφ hacc (ix1 p)).trans ?_
  refine Finset.sum_congr rfl fun k _ => congrArg v ?_
  funext c
  apply Fin.ext
  match c with
  | ⟨0, _⟩ => rfl
  | ⟨1, _⟩ => rfl

/-! ## The dense body -/

/-- The dense body over any row count: the matrix unit's product of the narrowed block with the loaded weight, into
    the zero splat, plus the one-row bias broadcast over the rows, is at (r, c) the sum over k < 64 of
    x(r,k) · w(k,c) plus b(0,c). The dimension numbers enter through their four coordinate facts only. -/
theorem dense_body {N : ℕ} (d : DotDims ⟨2, ![N, 64]⟩ ⟨2, ![64, 64]⟩ ⟨2, ![N, 64]⟩)
    (hr : d.contr.rank = 1) (hs : d.contr.size ⟨0, by omega⟩ = 64)
    (hl0 : ∀ (i : (⟨2, ![N, 64]⟩ : Shape).Idx) (q : d.contr.Idx), (d.lhsIdx i q 0).val = (i 0).val)
    (hl1 : ∀ (i : (⟨2, ![N, 64]⟩ : Shape).Idx) (q : d.contr.Idx), (d.lhsIdx i q 1).val = (q ⟨0, by omega⟩).val)
    (hr0 : ∀ (i : (⟨2, ![N, 64]⟩ : Shape).Idx) (q : d.contr.Idx), (d.rhsIdx i q 0).val = (q ⟨0, by omega⟩).val)
    (hr1 : ∀ (i : (⟨2, ![N, 64]⟩ : Shape).Idx) (q : d.contr.Idx), (d.rhsIdx i q 1).val = (i 1).val)
    (x : FVec Ideal ⟨2, ![N, 64]⟩ .f32) (w : FVec Ideal S64x64 .bf16) (b : FVec Ideal S1x64 .f32)
    (hlt : FTy.bits .bf16 < FTy.bits .f32) (hc1 : S64x64.ShapeCasts S64x64) (hc2 : S1x64.ShapeCasts S1x64)
    (hb : S1x64.Broadcasts ⟨2, ![N, 64]⟩) :
    addf (matmul d none (truncf .bf16 x hlt) (shapeCast S64x64 w hc1) (constant ⟨2, ![N, 64]⟩ .f32 0x00000000#32))
        (broadcastTo ⟨2, ![N, 64]⟩ (shapeCast S1x64 b hc2) hb)
      = Cert.Spec.dense (N := N) x w (Cert.Spec.rowOf b) := by
  funext j
  obtain ⟨p, q, rfl⟩ : ∃ (p : Fin N) (q : Fin 64), j = ix2 p q := ⟨j 0, j 1, eq_ix2 j⟩
  rw [shapeCast_self, shapeCast_self]
  have h1 := (Ideal.matmul_constant_zero_apply d none (truncf .bf16 x hlt) w (ix2 p q)).trans
    (Cert.Lib.PlainDot.contraction_sum d hr hs hl0 hl1 hr0 hr1 (truncf .bf16 x hlt) w p q)
  have h2 := broadcastTo_1b_ab_apply b hb p q
  exact (congrArg₂ (· + ·) h1 h2).trans rfl

/-! ## The coordinate facts of the two dimension-number records -/

section Coords

theorem d10k_l0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem d10k_l1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem d10k_r0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem d10k_r1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

theorem d4k_l0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem d4k_l1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem d4k_r0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem d4k_r1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

end Coords

/-! ## The two dense kernels -/

/-- The first dense kernel's stored block is the dense layer of the loaded block, weight and bias. -/
theorem linear0 (v0 : Vec Ideal S10000x64 .f32) (v2 : Vec Ideal S64x64 .bf16) (v5 : Vec Ideal S1x64 .f32) :
    k0_pay1 (F := Ideal) v0 v2 v5 = Cert.Spec.dense (N := 10000) v0 v2 (Cert.Spec.rowOf v5) :=
  dense_body dot_S10000x64_S64x64_S10000x64_1_0_0_1_n_n rfl rfl d10k_l0 d10k_l1 d10k_r0 d10k_r1 v0 v2 v5 _ _ _ _

/-- The second dense kernel's stored block likewise. -/
theorem linear1 (v0 : Vec Ideal S10000x64 .f32) (v2 : Vec Ideal S64x64 .bf16) (v5 : Vec Ideal S1x64 .f32) :
    k1_pay1 (F := Ideal) v0 v2 v5 = Cert.Spec.dense (N := 10000) v0 v2 (Cert.Spec.rowOf v5) :=
  dense_body dot_S10000x64_S64x64_S10000x64_1_0_0_1_n_n rfl rfl d10k_l0 d10k_l1 d10k_r0 d10k_r1 v0 v2 v5 _ _ _ _

/-! ## The epilogue -/

/-- The first epilogue kernel's stored block is the specification's epilogue of the loaded block: the compare-and-select
    is the leaky rectifier entry by entry; the lane reduction at row r is the sum over k < 64 of the squared rectified
    entries (r, k), the zero word it starts from being 0; the cast to one column and the broadcast over the lanes
    re-index by the row only; the rest is entrywise. -/
theorem post3 (v0 : Vec Ideal S10000x64 .f32) : k3_pay1 (F := Ideal) v0 = Cert.Spec.finish (N := 10000) v0 := by
  funext j
  obtain ⟨p, q, rfl⟩ : ∃ (p : Fin 10000) (q : Fin 64), j = ix2 p q := ⟨j 0, j 1, eq_ix2 j⟩
  unfold k3_pay1
  rw [shapeCast_self]
  show Ideal.div (Cert.Spec.leaky (v0 (ix2 p q)))
      (broadcastTo S10000x64
        (maximumf
          (sqrt (shapeCast S10000x1
            (multiReduction (F := Ideal) .add [1] S10000 (fun i => Cert.Spec.leaky (v0 i) * Cert.Spec.leaky (v0 i))
              0x00000000#32 reduces_S10000x64_S10000 (.inl rfl) rfl)
            shapeCasts_S10000_S10000x1))
          (broadcast S10000x1 (Scalar.ofBits .f32 0x2B8CBCCC#32)))
        broadcasts_S10000x1_S10000x64 (ix2 p q)) = _
  rw [broadcastTo_a1_ab_apply]
  show Ideal.div (Cert.Spec.leaky (v0 (ix2 p q)))
      (max (Ideal.sqrt (shapeCast S10000x1
            (multiReduction (F := Ideal) .add [1] S10000 (fun i => Cert.Spec.leaky (v0 i) * Cert.Spec.leaky (v0 i))
              0x00000000#32 reduces_S10000x64_S10000 (.inl rfl) rfl)
            shapeCasts_S10000_S10000x1 (ix2 p (0 : Fin 1))))
        (Ideal.ofBits .f32 0x2B8CBCCC#32)) = _
  rw [shapeCast_a_a1_apply]
  have hsum := laneSum_apply (n := 10000) (m := 64) (fun i => Cert.Spec.leaky (v0 i) * Cert.Spec.leaky (v0 i))
    0x00000000#32 reduces_S10000x64_S10000 (.inl rfl) rfl p
  refine (congrArg (fun s => Ideal.div (Cert.Spec.leaky (v0 (ix2 p q)))
    (max (Ideal.sqrt s) (Ideal.ofBits .f32 0x2B8CBCCC#32))) hsum).trans ?_
  show _ = Ideal.div (Cert.Spec.leaky (v0 (ix2 p q)))
    (max (Ideal.sqrt (Ideal.ofBits .f32 0x00000000#32
        + ∑ k : Fin 64, Cert.Spec.leaky (v0 (ix2 p k)) * Cert.Spec.leaky (v0 (ix2 p k))))
      (Ideal.ofBits .f32 0x2B8CBCCC#32))
  rw [Ideal.ofBits_zero_f32, zero_add]

/-- The second epilogue kernel's stored block likewise (its pure term is the first's). -/
theorem post4 (v0 : Vec Ideal S10000x64 .f32) : k4_pay1 (F := Ideal) v0 = Cert.Spec.finish (N := 10000) v0 :=
  post3 v0

/-! ## The edge kernel -/

/-- A trivial cast of the first endpoint's block is the block. -/
theorem pay1_eq (v0 : Vec Ideal S4000x64 .f32) : k2_pay1 (F := Ideal) v0 = v0 := shapeCast_self v0 _
/-- A trivial cast of the second endpoint's block is the block. -/
theorem pay2_eq (v2 : Vec Ideal S4000x64 .f32) : k2_pay2 (F := Ideal) v2 = v2 := shapeCast_self v2 _

/-- The second dense layer, of the entrywise product of the two endpoints' blocks. -/
theorem pay5_eq (v0 v2 : Vec Ideal S4000x64 .f32) (v10 : Vec Ideal S64x64 .bf16) (v14 : Vec Ideal S1x64 .f32) :
    k2_pay5 (F := Ideal) v0 v2 v10 v14
      = Cert.Spec.dense (N := 4000) (fun j => v0 j * v2 j) v10 (Cert.Spec.rowOf v14) := by
  unfold k2_pay5
  rw [pay1_eq, pay2_eq]
  exact dense_body dot_S4000x64_S64x64_S4000x64_1_0_0_1_n_n rfl rfl d4k_l0 d4k_l1 d4k_r0 d4k_r1 (mulf v0 v2) v10 v14 _ _ _ _

/-- The first dense layer of the edge kernel, of one endpoint's block. -/
theorem edge_dense (x : Vec Ideal S4000x64 .f32) (v8 : Vec Ideal S64x64 .bf16) (v12 : Vec Ideal S1x64 .f32) :
    addf (matmul dot_S4000x64_S64x64_S4000x64_1_0_0_1_n_n none (truncf .bf16 x bitsLt_bf16_f32) (k2_pay3 (F := Ideal) v8)
          (constant S4000x64 .f32 0x00000000#32))
        (broadcastTo S4000x64 (k2_pay4 (F := Ideal) v12) broadcasts_S1x64_S4000x64)
      = Cert.Spec.dense (N := 4000) x v8 (Cert.Spec.rowOf v12) :=
  dense_body dot_S4000x64_S64x64_S4000x64_1_0_0_1_n_n rfl rfl d4k_l0 d4k_l1 d4k_r0 d4k_r1 x v8 v12 _ _ _ _

/-- The message stored for the first direction: the norm column, broadcast over the lanes, times the sum of the dense
    layer of the first endpoint's rows and the second dense layer of the entrywise product. -/
theorem edge_ui (v0 v2 : Vec Ideal S4000x64 .f32) (v8 v10 : Vec Ideal S64x64 .bf16) (v12 v14 : Vec Ideal S1x64 .f32)
    (v25 : Vec Ideal S4000x1 .f32) :
    k2_pay6 (F := Ideal) v0 v2 v8 v10 v12 v14 v25
      = Cert.Spec.message (E := 4000) v0 v0 v2 v25 v8 (Cert.Spec.rowOf v12) v10 (Cert.Spec.rowOf v14) := by
  funext j
  obtain ⟨p, q, rfl⟩ : ∃ (p : Fin 4000) (q : Fin 64), j = ix2 p q := ⟨j 0, j 1, eq_ix2 j⟩
  unfold k2_pay6
  rw [pay1_eq, pay5_eq]
  exact (congrArg₂ (· * ·) (broadcastTo_a1_ab_apply v25 broadcasts_S4000x1_S4000x64 p q)
    (congrArg (fun d => d (ix2 p q) + Cert.Spec.dense (N := 4000) (fun j => v0 j * v2 j) v10 (Cert.Spec.rowOf v14) (ix2 p q))
      (edge_dense v0 v8 v12))).trans rfl

/-- The message stored for the other direction: the same with the second endpoint's rows in the first dense layer and
    the other norm column. -/
theorem edge_iu (v0 v2 : Vec Ideal S4000x64 .f32) (v8 v10 : Vec Ideal S64x64 .bf16) (v12 v14 : Vec Ideal S1x64 .f32)
    (v30 : Vec Ideal S4000x1 .f32) :
    k2_pay7 (F := Ideal) v0 v2 v8 v10 v12 v14 v30
      = Cert.Spec.message (E := 4000) v2 v0 v2 v30 v8 (Cert.Spec.rowOf v12) v10 (Cert.Spec.rowOf v14) := by
  funext j
  obtain ⟨p, q, rfl⟩ : ∃ (p : Fin 4000) (q : Fin 64), j = ix2 p q := ⟨j 0, j 1, eq_ix2 j⟩
  unfold k2_pay7
  rw [pay2_eq, pay5_eq]
  exact (congrArg₂ (· * ·) (broadcastTo_a1_ab_apply v30 broadcasts_S4000x1_S4000x64 p q)
    (congrArg (fun d => d (ix2 p q) + Cert.Spec.dense (N := 4000) (fun j => v0 j * v2 j) v10 (Cert.Spec.rowOf v14) (ix2 p q))
      (edge_dense v2 v8 v12))).trans rfl

end Cert.KernelIdeal.Bodies

end
-- ==== Proof.TilesDenseU.lean ====
/-
  The users' dense launch, from tiles to the array.

  The launch walks 20 tiles of 10000 rows. At tile t it stages rows 10000·t … 10000·t+9999 of the feature array, the
  whole transposed weight and the whole one-row bias, and writes back the dense layer of the staged rows to the same
  rows of the output. The dense layer's value at a row depends on that row only, so what tile t writes back is the
  restriction to its rows of the dense layer of the WHOLE feature array; the tiles cover every row (row r is in tile
  r / 10000), so after the launch the output array is the dense layer of the feature array.
-/
import proofs.«131144_j6614249636664_2_alg».proof.Proof.Gen.KernelIdeal.Frame
import proofs.«131144_j6614249636664_2_alg».proof.Proof.SpecRows
import proofs.«131144_j6614249636664_2_alg».proof.Proof.Bodies
import Idealize.ShloMosaic.Lib.Pipeline.Value

set_option maxRecDepth 16384

noncomputable section

namespace Cert.KernelIdeal.Tiles

open Cert.KernelIdeal Cert.KernelIdeal.Gen
open Idealize.ShloMosaic Idealize.ShloMosaic.TcCoe Idealize.ShloMosaic.ValueIdx Idealize.SL.Sem
open Idealize.ShloMosaic.Pipeline (Dat)

-- the buffers' contents when the launch is entered: a parameter
variable (V : (c : Dev nD) → (b : Ref sig .tc) → Buf (Elt Ideal) ((c : Thread nD τ).loc b))

theorem origin2 : (![0, 0] : Fin 2 → Nat) = fun _ => 0 := funext fun a => by fin_cases a <;> rfl

/-- The launch's printed block-index maps, decided over its 20 tiles: the feature and output tiles move down the rows
    with the tile number, the weight and the bias stay at the origin. -/
theorem mapsDenseU : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The dense layer of the arrays the launch finds: the whole feature array against the staged weight and bias. -/
abbrev denseDenseU (c : Dev nD) : S200000x64.Idx → EReal :=
  Cert.Spec.dense (N := 200000) (V c main_arg0 : S200000x64.Idx → EReal) (V c main_v1 : S64x64.Idx → EReal)
    (Cert.Spec.rowOf (V c main_v2 : S1x64.Idx → EReal))

/-- WHAT TILE t WRITES BACK is the restriction of the whole array's dense layer to the tile's rows. -/
theorem flushedDenseU (c : Dev nD) (t : Fin cfg0.N) :
    (dat0 V c).flushed 3 t = ((cfg0.win 3).blk t).view.read (Elt Ideal) (denseDenseU V c) := by
  show (cfg0.win 3).cut (grid0.coords t) ((dat0 V c).after 3 t) = _
  rw [after0_3]
  unfold out0_3
  rw [View.canon_unit_zero origin2]
  simp only [View.ld_unit_zero (S := S10000x64) origin2, View.ld_unit_zero (S := S64x64) origin2,
    View.ld_unit_zero (S := S1x64) origin2]
  rw [Cert.KernelIdeal.Bodies.linear0]
  obtain ⟨e00, e01, e10, e11, e20, e21, e30, e31⟩ := mapsDenseU t
  have ht : t.val < 20 := lt_of_lt_of_eq t.isLt (N_0 : cfg0.N = 20)
  funext y
  obtain ⟨p, q, rfl⟩ : ∃ (p : Fin 10000) (q : Fin 64), y = ix2 p q := ⟨y 0, y 1, eq_ix2 y⟩
  have hp : p.val < 10000 := p.isLt
  have hq : q.val < 64 := q.isLt
  have hr : t.val * 10000 + p.val < 200000 := by omega
  have hemb : ((cfg0.win 3).blk t).view.emb (ix2 p q) = ix2 (⟨t.val * 10000 + p.val, hr⟩ : Fin 200000) q := by
    funext a; apply Fin.ext
    match a with
    | ⟨0, _⟩ => show win0_3.index t (0 : Fin 2) * 10000 + 1 * p.val = t.val * 10000 + p.val; omega
    | ⟨1, _⟩ => show win0_3.index t (1 : Fin 2) * 64 + 1 * q.val = q.val; omega
  show Cert.Spec.dense (N := 10000) (iblk0 V c 0 t) (iblk0 V c 1 t) (Cert.Spec.rowOf (iblk0 V c 2 t)) (ix2 p q)
    = denseDenseU V c (((cfg0.win 3).blk t).view.emb (ix2 p q))
  rw [hemb]
  refine Cert.Spec.dense_row _ _ _ _ _ _ p ⟨t.val * 10000 + p.val, hr⟩ q (fun k => ?_) ?_ ?_
  · -- row p of the staged feature tile is row 10000·t + p of the feature array
    have hk : k.val < 64 := k.isLt
    show (V c main_arg0 : S200000x64.Idx → EReal) (((cfg0.win 0).blk t).view.emb (ix2 p k)) = _
    refine congrArg _ ?_
    funext a; apply Fin.ext
    match a with
    | ⟨0, _⟩ => show win0_0.index t (0 : Fin 2) * 10000 + 1 * p.val = t.val * 10000 + p.val; omega
    | ⟨1, _⟩ => show win0_0.index t (1 : Fin 2) * 64 + 1 * k.val = k.val; omega
  · -- the staged weight is the whole weight
    funext j
    show (V c main_v1 : S64x64.Idx → EReal) (((cfg0.win 1).blk t).view.emb j) = _
    refine congrArg _ ?_
    funext a; apply Fin.ext
    match a with
    | ⟨0, _⟩ => show win0_1.index t (0 : Fin 2) * 64 + 1 * (j 0).val = (j 0).val; omega
    | ⟨1, _⟩ => show win0_1.index t (1 : Fin 2) * 64 + 1 * (j 1).val = (j 1).val; omega
  · -- the staged bias is the whole bias
    funext j
    show (V c main_v2 : S1x64.Idx → EReal) (((cfg0.win 2).blk t).view.emb (ix2 (0 : Fin 1) (j 0))) = _
    refine congrArg _ ?_
    funext a; apply Fin.ext
    match a with
    | ⟨0, _⟩ => show win0_2.index t (0 : Fin 2) * 1 + 1 * 0 = 0; omega
    | ⟨1, _⟩ => show win0_2.index t (1 : Fin 2) * 64 + 1 * (j 0).val = (j 0).val; omega

/-- An index of the output array is in tile t iff each coordinate is in the tile's range on its axis. -/
theorem memTileDenseU (t : Fin cfg0.N) (i : S200000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v3).slice (win0_3.rect t)).set ↔ _
  rw [View.set_slice_whole, Rect.mem_set_unit]
  exact Iff.rfl

/-- Every row is in a tile that is written back: row r in tile r / 10000. -/
theorem coverDenseU (i : S200000x64.Idx) :
    ∃ t : Fin cfg0.N, (cfg0.win 3).flush t = true ∧ i ∈ ((cfg0.win 3).blk t).view.set := by
  have hi0 : (i 0).val < 200000 := (i 0).isLt
  have hi1 : (i 1).val < 64 := (i 1).isLt
  have hN : cfg0.N = 20 := N_0
  have hlt : (i 0).val / 10000 < cfg0.N := by rw [hN]; omega
  obtain ⟨-, -, -, -, -, -, eR, eC⟩ := mapsDenseU ⟨(i 0).val / 10000, hlt⟩
  refine ⟨⟨(i 0).val / 10000, hlt⟩, flush0_3 _, ?_⟩
  rw [memTileDenseU]
  intro a
  match a with
  | ⟨0, _⟩ =>
    show win0_3.index ⟨(i 0).val / 10000, hlt⟩ (0 : Fin 2) * 10000 ≤ (i 0).val
      ∧ (i 0).val < win0_3.index ⟨(i 0).val / 10000, hlt⟩ (0 : Fin 2) * 10000 + 10000
    rw [eR]; show (i 0).val / 10000 * 10000 ≤ (i 0).val ∧ (i 0).val < (i 0).val / 10000 * 10000 + 10000; omega
  | ⟨1, _⟩ =>
    show win0_3.index ⟨(i 0).val / 10000, hlt⟩ (1 : Fin 2) * 64 ≤ (i 1).val
      ∧ (i 1).val < win0_3.index ⟨(i 0).val / 10000, hlt⟩ (1 : Fin 2) * 64 + 64
    rw [eC]; omega

/-- AFTER THE LAUNCH the output array is the dense layer of the feature array. -/
theorem finalDenseU (c : Dev nD) : (dat0 V c).arrAt 3 cfg0.N = denseDenseU V c :=
  (dat0 V c).arrAt_eq_of_cover 3 (denseDenseU V c) (fun t _ => flushedDenseU V c t) (coverDenseU)

end Cert.KernelIdeal.Tiles

end
-- ==== Proof.TilesDenseI.lean ====
/-
  The items' dense launch, from tiles to the array.

  The launch walks 10 tiles of 10000 rows. At tile t it stages rows 10000·t … 10000·t+9999 of the feature array, the
  whole transposed weight and the whole one-row bias, and writes back the dense layer of the staged rows to the same
  rows of the output. The dense layer's value at a row depends on that row only, so what tile t writes back is the
  restriction to its rows of the dense layer of the WHOLE feature array; the tiles cover every row (row r is in tile
  r / 10000), so after the launch the output array is the dense layer of the feature array.
-/
import proofs.«131144_j6614249636664_2_alg».proof.Proof.Gen.KernelIdeal.Frame
import proofs.«131144_j6614249636664_2_alg».proof.Proof.SpecRows
import proofs.«131144_j6614249636664_2_alg».proof.Proof.Bodies
import proofs.«131144_j6614249636664_2_alg».proof.Proof.TilesDenseU
import Idealize.ShloMosaic.Lib.Pipeline.Value

set_option maxRecDepth 16384

noncomputable section

namespace Cert.KernelIdeal.Tiles

open Cert.KernelIdeal Cert.KernelIdeal.Gen
open Idealize.ShloMosaic Idealize.ShloMosaic.TcCoe Idealize.ShloMosaic.ValueIdx Idealize.SL.Sem
open Idealize.ShloMosaic.Pipeline (Dat)

-- the buffers' contents when the launch is entered: a parameter
variable (V : (c : Dev nD) → (b : Ref sig .tc) → Buf (Elt Ideal) ((c : Thread nD τ).loc b))

/-- The launch's printed block-index maps, decided over its 10 tiles: the feature and output tiles move down the rows
    with the tile number, the weight and the bias stay at the origin. -/
theorem mapsDenseI : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The dense layer of the arrays the launch finds: the whole feature array against the staged weight and bias. -/
abbrev denseDenseI (c : Dev nD) : S100000x64.Idx → EReal :=
  Cert.Spec.dense (N := 100000) (V c main_arg1 : S100000x64.Idx → EReal) (V c main_v5 : S64x64.Idx → EReal)
    (Cert.Spec.rowOf (V c main_v6 : S1x64.Idx → EReal))

/-- WHAT TILE t WRITES BACK is the restriction of the whole array's dense layer to the tile's rows. -/
theorem flushedDenseI (c : Dev nD) (t : Fin cfg1.N) :
    (dat1 V c).flushed 3 t = ((cfg1.win 3).blk t).view.read (Elt Ideal) (denseDenseI V c) := by
  show (cfg1.win 3).cut (grid1.coords t) ((dat1 V c).after 3 t) = _
  rw [after1_3]
  unfold out1_3
  rw [View.canon_unit_zero origin2]
  simp only [View.ld_unit_zero (S := S10000x64) origin2, View.ld_unit_zero (S := S64x64) origin2,
    View.ld_unit_zero (S := S1x64) origin2]
  rw [Cert.KernelIdeal.Bodies.linear1]
  obtain ⟨e00, e01, e10, e11, e20, e21, e30, e31⟩ := mapsDenseI t
  have ht : t.val < 10 := lt_of_lt_of_eq t.isLt (N_1 : cfg1.N = 10)
  funext y
  obtain ⟨p, q, rfl⟩ : ∃ (p : Fin 10000) (q : Fin 64), y = ix2 p q := ⟨y 0, y 1, eq_ix2 y⟩
  have hp : p.val < 10000 := p.isLt
  have hq : q.val < 64 := q.isLt
  have hr : t.val * 10000 + p.val < 100000 := by omega
  have hemb : ((cfg1.win 3).blk t).view.emb (ix2 p q) = ix2 (⟨t.val * 10000 + p.val, hr⟩ : Fin 100000) q := by
    funext a; apply Fin.ext
    match a with
    | ⟨0, _⟩ => show win1_3.index t (0 : Fin 2) * 10000 + 1 * p.val = t.val * 10000 + p.val; omega
    | ⟨1, _⟩ => show win1_3.index t (1 : Fin 2) * 64 + 1 * q.val = q.val; omega
  show Cert.Spec.dense (N := 10000) (iblk1 V c 0 t) (iblk1 V c 1 t) (Cert.Spec.rowOf (iblk1 V c 2 t)) (ix2 p q)
    = denseDenseI V c (((cfg1.win 3).blk t).view.emb (ix2 p q))
  rw [hemb]
  refine Cert.Spec.dense_row _ _ _ _ _ _ p ⟨t.val * 10000 + p.val, hr⟩ q (fun k => ?_) ?_ ?_
  · -- row p of the staged feature tile is row 10000·t + p of the feature array
    have hk : k.val < 64 := k.isLt
    show (V c main_arg1 : S100000x64.Idx → EReal) (((cfg1.win 0).blk t).view.emb (ix2 p k)) = _
    refine congrArg _ ?_
    funext a; apply Fin.ext
    match a with
    | ⟨0, _⟩ => show win1_0.index t (0 : Fin 2) * 10000 + 1 * p.val = t.val * 10000 + p.val; omega
    | ⟨1, _⟩ => show win1_0.index t (1 : Fin 2) * 64 + 1 * k.val = k.val; omega
  · -- the staged weight is the whole weight
    funext j
    show (V c main_v5 : S64x64.Idx → EReal) (((cfg1.win 1).blk t).view.emb j) = _
    refine congrArg _ ?_
    funext a; apply Fin.ext
    match a with
    | ⟨0, _⟩ => show win1_1.index t (0 : Fin 2) * 64 + 1 * (j 0).val = (j 0).val; omega
    | ⟨1, _⟩ => show win1_1.index t (1 : Fin 2) * 64 + 1 * (j 1).val = (j 1).val; omega
  · -- the staged bias is the whole bias
    funext j
    show (V c main_v6 : S1x64.Idx → EReal) (((cfg1.win 2).blk t).view.emb (ix2 (0 : Fin 1) (j 0))) = _
    refine congrArg _ ?_
    funext a; apply Fin.ext
    match a with
    | ⟨0, _⟩ => show win1_2.index t (0 : Fin 2) * 1 + 1 * 0 = 0; omega
    | ⟨1, _⟩ => show win1_2.index t (1 : Fin 2) * 64 + 1 * (j 0).val = (j 0).val; omega

/-- An index of the output array is in tile t iff each coordinate is in the tile's range on its axis. -/
theorem memTileDenseI (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v7).slice (win1_3.rect t)).set ↔ _
  rw [View.set_slice_whole, Rect.mem_set_unit]
  exact Iff.rfl

/-- Every row is in a tile that is written back: row r in tile r / 10000. -/
theorem coverDenseI (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  have hlt : (i 0).val / 10000 < cfg1.N := by rw [hN]; omega
  obtain ⟨-, -, -, -, -, -, eR, eC⟩ := mapsDenseI ⟨(i 0).val / 10000, hlt⟩
  refine ⟨⟨(i 0).val / 10000, hlt⟩, flush1_3 _, ?_⟩
  rw [memTileDenseI]
  intro a
  match a with
  | ⟨0, _⟩ =>
    show win1_3.index ⟨(i 0).val / 10000, hlt⟩ (0 : Fin 2) * 10000 ≤ (i 0).val
      ∧ (i 0).val < win1_3.index ⟨(i 0).val / 10000, hlt⟩ (0 : Fin 2) * 10000 + 10000
    rw [eR]; show (i 0).val / 10000 * 10000 ≤ (i 0).val ∧ (i 0).val < (i 0).val / 10000 * 10000 + 10000; omega
  | ⟨1, _⟩ =>
    show win1_3.index ⟨(i 0).val / 10000, hlt⟩ (1 : Fin 2) * 64 ≤ (i 1).val
      ∧ (i 1).val < win1_3.index ⟨(i 0).val / 10000, hlt⟩ (1 : Fin 2) * 64 + 64
    rw [eC]; omega

/-- AFTER THE LAUNCH the output array is the dense layer of the feature array. -/
theorem finalDenseI (c : Dev nD) : (dat1 V c).arrAt 3 cfg1.N = denseDenseI V c :=
  (dat1 V c).arrAt_eq_of_cover 3 (denseDenseI V c) (fun t _ => flushedDenseI V c t) (coverDenseI)

end Cert.KernelIdeal.Tiles

end
-- ==== Proof.TilesEdge.lean ====
/-
  The edge launch, from tiles to the two message arrays.

  The launch walks 250 tiles of 4000 edges. At tile t it stages edges 4000·t … 4000·t+3999 of the two gathered
  endpoint-feature arrays and of the two norm-weight columns, and the two transposed weights and two one-row biases
  whole; it writes back, to the same edges of two outputs, the user→item and the item→user messages of the staged
  edges. A message depends on its own edge's rows only, so what tile t writes back is the restriction to its edges of
  the messages of the WHOLE arrays, and the tiles cover every edge (edge e is in tile e / 4000).
-/
import proofs.«131144_j6614249636664_2_alg».proof.Proof.Gen.KernelIdeal.Frame
import proofs.«131144_j6614249636664_2_alg».proof.Proof.SpecRows
import proofs.«131144_j6614249636664_2_alg».proof.Proof.Bodies
import proofs.«131144_j6614249636664_2_alg».proof.Proof.TilesDenseU
import Idealize.ShloMosaic.Lib.Pipeline.Value

set_option maxRecDepth 16384

noncomputable section

namespace Cert.KernelIdeal.Tiles

open Cert.KernelIdeal Cert.KernelIdeal.Gen
open Idealize.ShloMosaic Idealize.ShloMosaic.TcCoe Idealize.ShloMosaic.ValueIdx Idealize.SL.Sem
open Idealize.ShloMosaic.Pipeline (Dat)

-- the buffers' contents when the launch is entered: a parameter
variable (V : (c : Dev nD) → (b : Ref sig .tc) → Buf (Elt Ideal) ((c : Thread nD τ).loc b))

/-- The launch's printed block-index maps, decided over its 250 tiles: the four per-edge inputs and the two outputs move
    down the edges with the tile number; the weights and biases stay at the origin. -/
theorem mapsEdge : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0
    ∧ win2_9.index t (0 : Fin 2) = t.val ∧ win2_9.index t (1 : Fin 2) = 0 :=
  (by decide +kernel : ∀ t : Fin grid2.N, _)

/-- The user→item messages of the arrays the launch finds. -/
abbrev messageUI (c : Dev nD) : S1000000x64.Idx → EReal :=
  Cert.Spec.message (E := 1000000) (V c main_v14 : S1000000x64.Idx → EReal) (V c main_v14 : S1000000x64.Idx → EReal)
    (V c main_v21 : S1000000x64.Idx → EReal) (V c main_arg6 : S1000000x1.Idx → EReal)
    (V c main_v23 : S64x64.Idx → EReal) (Cert.Spec.rowOf (V c main_v26 : S1x64.Idx → EReal))
    (V c main_v25 : S64x64.Idx → EReal) (Cert.Spec.rowOf (V c main_v27 : S1x64.Idx → EReal))

/-- WHAT TILE t WRITES BACK to the user→item output is the restriction of the whole arrays' messages to the tile's edges. -/
theorem flushedUI (c : Dev nD) (t : Fin cfg2.N) :
    (dat2 V c).flushed 8 t = ((cfg2.win 8).blk t).view.read (Elt Ideal) (messageUI V c) := by
  show (cfg2.win 8).cut (grid2.coords t) ((dat2 V c).after 8 t) = _
  rw [after2_8]
  unfold out2_8
  rw [View.canon_unit_zero origin2]
  simp only [View.ld_unit_zero (S := S4000x64) origin2, View.ld_unit_zero (S := S64x64) origin2,
    View.ld_unit_zero (S := S1x64) origin2, View.ld_unit_zero (S := S4000x1) origin2]
  rw [Cert.KernelIdeal.Bodies.edge_ui]
  obtain ⟨e00, e01, e10, e11, e20, e21, e30, e31, e40, e41, e50, e51, e60, e61, e70, e71, e80, e81, e90, e91⟩ := mapsEdge t
  have ht : t.val < 250 := lt_of_lt_of_eq t.isLt (N_2 : cfg2.N = 250)
  funext y
  obtain ⟨p, q, rfl⟩ : ∃ (p : Fin 4000) (q : Fin 64), y = ix2 p q := ⟨y 0, y 1, eq_ix2 y⟩
  have hp : p.val < 4000 := p.isLt
  have hq : q.val < 64 := q.isLt
  have hr : t.val * 4000 + p.val < 1000000 := by omega
  have hemb : ((cfg2.win 8).blk t).view.emb (ix2 p q) = ix2 (⟨t.val * 4000 + p.val, hr⟩ : Fin 1000000) q := by
    funext a; apply Fin.ext
    match a with
    | ⟨0, _⟩ => show win2_8.index t (0 : Fin 2) * 4000 + 1 * p.val = t.val * 4000 + p.val; omega
    | ⟨1, _⟩ => show win2_8.index t (1 : Fin 2) * 64 + 1 * q.val = q.val; omega
  show Cert.Spec.message (E := 4000) (iblk2 V c 0 t) (iblk2 V c 0 t) (iblk2 V c 1 t) (iblk2 V c 2 t) (iblk2 V c 4 t)
      (Cert.Spec.rowOf (iblk2 V c 5 t)) (iblk2 V c 6 t) (Cert.Spec.rowOf (iblk2 V c 7 t)) (ix2 p q)
    = messageUI V c (((cfg2.win 8).blk t).view.emb (ix2 p q))
  rw [hemb]
  refine Cert.Spec.message_row _ _ _ _ _ _ _ _ _ _ _ _ _ _ _ _ p ⟨t.val * 4000 + p.val, hr⟩ q
    (fun k => ?_) (fun k => ?_) (fun k => ?_) ?_ ?_ ?_ ?_ ?_
  · have hk : k.val < 64 := k.isLt
    show (V c main_v14 : S1000000x64.Idx → EReal) (((cfg2.win 0).blk t).view.emb (ix2 p k)) = _
    refine congrArg _ ?_
    funext a; apply Fin.ext
    match a with
    | ⟨0, _⟩ => show win2_0.index t (0 : Fin 2) * 4000 + 1 * p.val = t.val * 4000 + p.val; omega
    | ⟨1, _⟩ => show win2_0.index t (1 : Fin 2) * 64 + 1 * k.val = k.val; omega
  · have hk : k.val < 64 := k.isLt
    show (V c main_v14 : S1000000x64.Idx → EReal) (((cfg2.win 0).blk t).view.emb (ix2 p k)) = _
    refine congrArg _ ?_
    funext a; apply Fin.ext
    match a with
    | ⟨0, _⟩ => show win2_0.index t (0 : Fin 2) * 4000 + 1 * p.val = t.val * 4000 + p.val; omega
    | ⟨1, _⟩ => show win2_0.index t (1 : Fin 2) * 64 + 1 * k.val = k.val; omega
  · have hk : k.val < 64 := k.isLt
    show (V c main_v21 : S1000000x64.Idx → EReal) (((cfg2.win 1).blk t).view.emb (ix2 p k)) = _
    refine congrArg _ ?_
    funext a; apply Fin.ext
    match a with
    | ⟨0, _⟩ => show win2_1.index t (0 : Fin 2) * 4000 + 1 * p.val = t.val * 4000 + p.val; omega
    | ⟨1, _⟩ => show win2_1.index t (1 : Fin 2) * 64 + 1 * k.val = k.val; omega
  · show (V c main_arg6 : S1000000x1.Idx → EReal) (((cfg2.win 2).blk t).view.emb (ix2 p (0 : Fin 1))) = _
    refine congrArg _ ?_
    funext a; apply Fin.ext
    match a with
    | ⟨0, _⟩ => show win2_2.index t (0 : Fin 2) * 4000 + 1 * p.val = t.val * 4000 + p.val; omega
    | ⟨1, _⟩ => show win2_2.index t (1 : Fin 2) * 1 + 1 * 0 = 0; omega
  · funext j
    show (V c main_v23 : S64x64.Idx → EReal) (((cfg2.win 4).blk t).view.emb j) = _
    refine congrArg _ ?_
    funext a; apply Fin.ext
    match a with
    | ⟨0, _⟩ => show win2_4.index t (0 : Fin 2) * 64 + 1 * (j 0).val = (j 0).val; omega
    | ⟨1, _⟩ => show win2_4.index t (1 : Fin 2) * 64 + 1 * (j 1).val = (j 1).val; omega
  · funext j
    show (V c main_v26 : S1x64.Idx → EReal) (((cfg2.win 5).blk t).view.emb (ix2 (0 : Fin 1) (j 0))) = _
    refine congrArg _ ?_
    funext a; apply Fin.ext
    match a with
    | ⟨0, _⟩ => show win2_5.index t (0 : Fin 2) * 1 + 1 * 0 = 0; omega
    | ⟨1, _⟩ => show win2_5.index t (1 : Fin 2) * 64 + 1 * (j 0).val = (j 0).val; omega
  · funext j
    show (V c main_v25 : S64x64.Idx → EReal) (((cfg2.win 6).blk t).view.emb j) = _
    refine congrArg _ ?_
    funext a; apply Fin.ext
    match a with
    | ⟨0, _⟩ => show win2_6.index t (0 : Fin 2) * 64 + 1 * (j 0).val = (j 0).val; omega
    | ⟨1, _⟩ => show win2_6.index t (1 : Fin 2) * 64 + 1 * (j 1).val = (j 1).val; omega
  · funext j
    show (V c main_v27 : S1x64.Idx → EReal) (((cfg2.win 7).blk t).view.emb (ix2 (0 : Fin 1) (j 0))) = _
    refine congrArg _ ?_
    funext a; apply Fin.ext
    match a with
    | ⟨0, _⟩ => show win2_7.index t (0 : Fin 2) * 1 + 1 * 0 = 0; omega
    | ⟨1, _⟩ => show win2_7.index t (1 : Fin 2) * 64 + 1 * (j 0).val = (j 0).val; omega

/-- An index of the output array is in tile t iff each coordinate is in the tile's range on its axis. -/
theorem memTileUI (t : Fin cfg2.N) (i : S1000000x64.Idx) :
    i ∈ ((cfg2.win 8).blk t).view.set ↔ ∀ a : Fin 2, win2_8.index t a * S4000x64.size a ≤ (i a).val
      ∧ (i a).val < win2_8.index t a * S4000x64.size a + S4000x64.size a := by
  show i ∈ ((View.whole main_v28_0).slice (win2_8.rect t)).set ↔ _
  rw [View.set_slice_whole, Rect.mem_set_unit]
  exact Iff.rfl

/-- Every row is in a tile that is written back: row r in tile r / 4000. -/
theorem coverUI (i : S1000000x64.Idx) :
    ∃ t : Fin cfg2.N, (cfg2.win 8).flush t = true ∧ i ∈ ((cfg2.win 8).blk t).view.set := by
  have hi0 : (i 0).val < 1000000 := (i 0).isLt
  have hi1 : (i 1).val < 64 := (i 1).isLt
  have hN : cfg2.N = 250 := N_2
  have hlt : (i 0).val / 4000 < cfg2.N := by rw [hN]; omega
  obtain ⟨-, -, -, -, -, -, -, -, -, -, -, -, -, -, -, -, eR, eC, -, -⟩ := mapsEdge ⟨(i 0).val / 4000, hlt⟩
  refine ⟨⟨(i 0).val / 4000, hlt⟩, flush2_8 _, ?_⟩
  rw [memTileUI]
  intro a
  match a with
  | ⟨0, _⟩ =>
    show win2_8.index ⟨(i 0).val / 4000, hlt⟩ (0 : Fin 2) * 4000 ≤ (i 0).val
      ∧ (i 0).val < win2_8.index ⟨(i 0).val / 4000, hlt⟩ (0 : Fin 2) * 4000 + 4000
    rw [eR]; show (i 0).val / 4000 * 4000 ≤ (i 0).val ∧ (i 0).val < (i 0).val / 4000 * 4000 + 4000; omega
  | ⟨1, _⟩ =>
    show win2_8.index ⟨(i 0).val / 4000, hlt⟩ (1 : Fin 2) * 64 ≤ (i 1).val
      ∧ (i 1).val < win2_8.index ⟨(i 0).val / 4000, hlt⟩ (1 : Fin 2) * 64 + 64
    rw [eC]; omega

/-- AFTER THE LAUNCH the user→item output array holds the messages of the arrays it found. -/
theorem finalUI (c : Dev nD) : (dat2 V c).arrAt 8 cfg2.N = messageUI V c :=
  (dat2 V c).arrAt_eq_of_cover 8 (messageUI V c) (fun t _ => flushedUI V c t) (coverUI)

/-- The item→user messages of the arrays the launch finds. -/
abbrev messageIU (c : Dev nD) : S1000000x64.Idx → EReal :=
  Cert.Spec.message (E := 1000000) (V c main_v21 : S1000000x64.Idx → EReal) (V c main_v14 : S1000000x64.Idx → EReal)
    (V c main_v21 : S1000000x64.Idx → EReal) (V c main_arg7 : S1000000x1.Idx → EReal)
    (V c main_v23 : S64x64.Idx → EReal) (Cert.Spec.rowOf (V c main_v26 : S1x64.Idx → EReal))
    (V c main_v25 : S64x64.Idx → EReal) (Cert.Spec.rowOf (V c main_v27 : S1x64.Idx → EReal))

/-- WHAT TILE t WRITES BACK to the item→user output is the restriction of the whole arrays' messages to the tile's edges. -/
theorem flushedIU (c : Dev nD) (t : Fin cfg2.N) :
    (dat2 V c).flushed 9 t = ((cfg2.win 9).blk t).view.read (Elt Ideal) (messageIU V c) := by
  show (cfg2.win 9).cut (grid2.coords t) ((dat2 V c).after 9 t) = _
  rw [after2_9]
  unfold out2_9
  rw [View.canon_unit_zero origin2]
  simp only [View.ld_unit_zero (S := S4000x64) origin2, View.ld_unit_zero (S := S64x64) origin2,
    View.ld_unit_zero (S := S1x64) origin2, View.ld_unit_zero (S := S4000x1) origin2]
  rw [Cert.KernelIdeal.Bodies.edge_iu]
  obtain ⟨e00, e01, e10, e11, e20, e21, e30, e31, e40, e41, e50, e51, e60, e61, e70, e71, e80, e81, e90, e91⟩ := mapsEdge t
  have ht : t.val < 250 := lt_of_lt_of_eq t.isLt (N_2 : cfg2.N = 250)
  funext y
  obtain ⟨p, q, rfl⟩ : ∃ (p : Fin 4000) (q : Fin 64), y = ix2 p q := ⟨y 0, y 1, eq_ix2 y⟩
  have hp : p.val < 4000 := p.isLt
  have hq : q.val < 64 := q.isLt
  have hr : t.val * 4000 + p.val < 1000000 := by omega
  have hemb : ((cfg2.win 9).blk t).view.emb (ix2 p q) = ix2 (⟨t.val * 4000 + p.val, hr⟩ : Fin 1000000) q := by
    funext a; apply Fin.ext
    match a with
    | ⟨0, _⟩ => show win2_9.index t (0 : Fin 2) * 4000 + 1 * p.val = t.val * 4000 + p.val; omega
    | ⟨1, _⟩ => show win2_9.index t (1 : Fin 2) * 64 + 1 * q.val = q.val; omega
  show Cert.Spec.message (E := 4000) (iblk2 V c 1 t) (iblk2 V c 0 t) (iblk2 V c 1 t) (iblk2 V c 3 t) (iblk2 V c 4 t)
      (Cert.Spec.rowOf (iblk2 V c 5 t)) (iblk2 V c 6 t) (Cert.Spec.rowOf (iblk2 V c 7 t)) (ix2 p q)
    = messageIU V c (((cfg2.win 9).blk t).view.emb (ix2 p q))
  rw [hemb]
  refine Cert.Spec.message_row _ _ _ _ _ _ _ _ _ _ _ _ _ _ _ _ p ⟨t.val * 4000 + p.val, hr⟩ q
    (fun k => ?_) (fun k => ?_) (fun k => ?_) ?_ ?_ ?_ ?_ ?_
  · have hk : k.val < 64 := k.isLt
    show (V c main_v21 : S1000000x64.Idx → EReal) (((cfg2.win 1).blk t).view.emb (ix2 p k)) = _
    refine congrArg _ ?_
    funext a; apply Fin.ext
    match a with
    | ⟨0, _⟩ => show win2_1.index t (0 : Fin 2) * 4000 + 1 * p.val = t.val * 4000 + p.val; omega
    | ⟨1, _⟩ => show win2_1.index t (1 : Fin 2) * 64 + 1 * k.val = k.val; omega
  · have hk : k.val < 64 := k.isLt
    show (V c main_v14 : S1000000x64.Idx → EReal) (((cfg2.win 0).blk t).view.emb (ix2 p k)) = _
    refine congrArg _ ?_
    funext a; apply Fin.ext
    match a with
    | ⟨0, _⟩ => show win2_0.index t (0 : Fin 2) * 4000 + 1 * p.val = t.val * 4000 + p.val; omega
    | ⟨1, _⟩ => show win2_0.index t (1 : Fin 2) * 64 + 1 * k.val = k.val; omega
  · have hk : k.val < 64 := k.isLt
    show (V c main_v21 : S1000000x64.Idx → EReal) (((cfg2.win 1).blk t).view.emb (ix2 p k)) = _
    refine congrArg _ ?_
    funext a; apply Fin.ext
    match a with
    | ⟨0, _⟩ => show win2_1.index t (0 : Fin 2) * 4000 + 1 * p.val = t.val * 4000 + p.val; omega
    | ⟨1, _⟩ => show win2_1.index t (1 : Fin 2) * 64 + 1 * k.val = k.val; omega
  · show (V c main_arg7 : S1000000x1.Idx → EReal) (((cfg2.win 3).blk t).view.emb (ix2 p (0 : Fin 1))) = _
    refine congrArg _ ?_
    funext a; apply Fin.ext
    match a with
    | ⟨0, _⟩ => show win2_3.index t (0 : Fin 2) * 4000 + 1 * p.val = t.val * 4000 + p.val; omega
    | ⟨1, _⟩ => show win2_3.index t (1 : Fin 2) * 1 + 1 * 0 = 0; omega
  · funext j
    show (V c main_v23 : S64x64.Idx → EReal) (((cfg2.win 4).blk t).view.emb j) = _
    refine congrArg _ ?_
    funext a; apply Fin.ext
    match a with
    | ⟨0, _⟩ => show win2_4.index t (0 : Fin 2) * 64 + 1 * (j 0).val = (j 0).val; omega
    | ⟨1, _⟩ => show win2_4.index t (1 : Fin 2) * 64 + 1 * (j 1).val = (j 1).val; omega
  · funext j
    show (V c main_v26 : S1x64.Idx → EReal) (((cfg2.win 5).blk t).view.emb (ix2 (0 : Fin 1) (j 0))) = _
    refine congrArg _ ?_
    funext a; apply Fin.ext
    match a with
    | ⟨0, _⟩ => show win2_5.index t (0 : Fin 2) * 1 + 1 * 0 = 0; omega
    | ⟨1, _⟩ => show win2_5.index t (1 : Fin 2) * 64 + 1 * (j 0).val = (j 0).val; omega
  · funext j
    show (V c main_v25 : S64x64.Idx → EReal) (((cfg2.win 6).blk t).view.emb j) = _
    refine congrArg _ ?_
    funext a; apply Fin.ext
    match a with
    | ⟨0, _⟩ => show win2_6.index t (0 : Fin 2) * 64 + 1 * (j 0).val = (j 0).val; omega
    | ⟨1, _⟩ => show win2_6.index t (1 : Fin 2) * 64 + 1 * (j 1).val = (j 1).val; omega
  · funext j
    show (V c main_v27 : S1x64.Idx → EReal) (((cfg2.win 7).blk t).view.emb (ix2 (0 : Fin 1) (j 0))) = _
    refine congrArg _ ?_
    funext a; apply Fin.ext
    match a with
    | ⟨0, _⟩ => show win2_7.index t (0 : Fin 2) * 1 + 1 * 0 = 0; omega
    | ⟨1, _⟩ => show win2_7.index t (1 : Fin 2) * 64 + 1 * (j 0).val = (j 0).val; omega

/-- An index of the output array is in tile t iff each coordinate is in the tile's range on its axis. -/
theorem memTileIU (t : Fin cfg2.N) (i : S1000000x64.Idx) :
    i ∈ ((cfg2.win 9).blk t).view.set ↔ ∀ a : Fin 2, win2_9.index t a * S4000x64.size a ≤ (i a).val
      ∧ (i a).val < win2_9.index t a * S4000x64.size a + S4000x64.size a := by
  show i ∈ ((View.whole main_v28_1).slice (win2_9.rect t)).set ↔ _
  rw [View.set_slice_whole, Rect.mem_set_unit]
  exact Iff.rfl

/-- Every row is in a tile that is written back: row r in tile r / 4000. -/
theorem coverIU (i : S1000000x64.Idx) :
    ∃ t : Fin cfg2.N, (cfg2.win 9).flush t = true ∧ i ∈ ((cfg2.win 9).blk t).view.set := by
  have hi0 : (i 0).val < 1000000 := (i 0).isLt
  have hi1 : (i 1).val < 64 := (i 1).isLt
  have hN : cfg2.N = 250 := N_2
  have hlt : (i 0).val / 4000 < cfg2.N := by rw [hN]; omega
  obtain ⟨-, -, -, -, -, -, -, -, -, -, -, -, -, -, -, -, -, -, eR, eC⟩ := mapsEdge ⟨(i 0).val / 4000, hlt⟩
  refine ⟨⟨(i 0).val / 4000, hlt⟩, flush2_9 _, ?_⟩
  rw [memTileIU]
  intro a
  match a with
  | ⟨0, _⟩ =>
    show win2_9.index ⟨(i 0).val / 4000, hlt⟩ (0 : Fin 2) * 4000 ≤ (i 0).val
      ∧ (i 0).val < win2_9.index ⟨(i 0).val / 4000, hlt⟩ (0 : Fin 2) * 4000 + 4000
    rw [eR]; show (i 0).val / 4000 * 4000 ≤ (i 0).val ∧ (i 0).val < (i 0).val / 4000 * 4000 + 4000; omega
  | ⟨1, _⟩ =>
    show win2_9.index ⟨(i 0).val / 4000, hlt⟩ (1 : Fin 2) * 64 ≤ (i 1).val
      ∧ (i 1).val < win2_9.index ⟨(i 0).val / 4000, hlt⟩ (1 : Fin 2) * 64 + 64
    rw [eC]; omega

/-- AFTER THE LAUNCH the item→user output array holds the messages of the arrays it found. -/
theorem finalIU (c : Dev nD) : (dat2 V c).arrAt 9 cfg2.N = messageIU V c :=
  (dat2 V c).arrAt_eq_of_cover 9 (messageIU V c) (fun t _ => flushedIU V c t) (coverIU)

end Cert.KernelIdeal.Tiles

end
-- ==== Proof.TilesFinishU.lean ====
/-
  The users' epilogue launch, from tiles to the array.

  The launch walks 20 tiles of 10000 rows; at tile t it stages rows 10000·t … 10000·t+9999 of the summed features and
  writes back their leaky-rectified, row-normalised values to the same rows of the output. The epilogue's value at a
  row depends on that row only (its norm is taken along the row), so what tile t writes back is the restriction to
  its rows of the epilogue of the WHOLE array, and the tiles cover every row.
-/
import proofs.«131144_j6614249636664_2_alg».proof.Proof.Gen.KernelIdeal.Frame
import proofs.«131144_j6614249636664_2_alg».proof.Proof.SpecRows
import proofs.«131144_j6614249636664_2_alg».proof.Proof.Bodies
import proofs.«131144_j6614249636664_2_alg».proof.Proof.TilesDenseU
import Idealize.ShloMosaic.Lib.Pipeline.Value

set_option maxRecDepth 16384

noncomputable section

namespace Cert.KernelIdeal.Tiles

open Cert.KernelIdeal Cert.KernelIdeal.Gen
open Idealize.ShloMosaic Idealize.ShloMosaic.TcCoe Idealize.ShloMosaic.ValueIdx Idealize.SL.Sem
open Idealize.ShloMosaic.Pipeline (Dat)

-- the buffers' contents when the launch is entered: a parameter
variable (V : (c : Dev nD) → (b : Ref sig .tc) → Buf (Elt Ideal) ((c : Thread nD τ).loc b))

/-- The launch's printed block-index maps, decided over its 20 tiles: both tiles move down the rows with the tile number. -/
theorem mapsFinishU : ∀ t : Fin cfg3.N,
    win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- The epilogue of the array the launch finds. -/
abbrev finishFinishU (c : Dev nD) : S200000x64.Idx → EReal :=
  Cert.Spec.finish (N := 200000) (V c main_v36 : S200000x64.Idx → EReal)

/-- WHAT TILE t WRITES BACK is the restriction of the whole array's epilogue to the tile's rows. -/
theorem flushedFinishU (c : Dev nD) (t : Fin cfg3.N) :
    (dat3 V c).flushed 1 t = ((cfg3.win 1).blk t).view.read (Elt Ideal) (finishFinishU V c) := by
  show (cfg3.win 1).cut (grid3.coords t) ((dat3 V c).after 1 t) = _
  rw [after3_1]
  unfold out3_1
  rw [View.canon_unit_zero origin2]
  simp only [View.ld_unit_zero (S := S10000x64) origin2]
  rw [Cert.KernelIdeal.Bodies.post3]
  obtain ⟨e00, e01, e10, e11⟩ := mapsFinishU t
  have ht : t.val < 20 := lt_of_lt_of_eq t.isLt (N_3 : cfg3.N = 20)
  funext y
  obtain ⟨p, q, rfl⟩ : ∃ (p : Fin 10000) (q : Fin 64), y = ix2 p q := ⟨y 0, y 1, eq_ix2 y⟩
  have hp : p.val < 10000 := p.isLt
  have hq : q.val < 64 := q.isLt
  have hr : t.val * 10000 + p.val < 200000 := by omega
  have hemb : ((cfg3.win 1).blk t).view.emb (ix2 p q) = ix2 (⟨t.val * 10000 + p.val, hr⟩ : Fin 200000) q := by
    funext a; apply Fin.ext
    match a with
    | ⟨0, _⟩ => show win3_1.index t (0 : Fin 2) * 10000 + 1 * p.val = t.val * 10000 + p.val; omega
    | ⟨1, _⟩ => show win3_1.index t (1 : Fin 2) * 64 + 1 * q.val = q.val; omega
  show Cert.Spec.finish (N := 10000) (iblk3 V c 0 t) (ix2 p q)
    = finishFinishU V c (((cfg3.win 1).blk t).view.emb (ix2 p q))
  rw [hemb]
  refine Cert.Spec.finish_row _ _ p ⟨t.val * 10000 + p.val, hr⟩ q (fun k => ?_)
  · -- row p of the staged tile is row 10000·t + p of the array
    have hk : k.val < 64 := k.isLt
    show (V c main_v36 : S200000x64.Idx → EReal) (((cfg3.win 0).blk t).view.emb (ix2 p k)) = _
    refine congrArg _ ?_
    funext a; apply Fin.ext
    match a with
    | ⟨0, _⟩ => show win3_0.index t (0 : Fin 2) * 10000 + 1 * p.val = t.val * 10000 + p.val; omega
    | ⟨1, _⟩ => show win3_0.index t (1 : Fin 2) * 64 + 1 * k.val = k.val; omega

/-- An index of the output array is in tile t iff each coordinate is in the tile's range on its axis. -/
theorem memTileFinishU (t : Fin cfg3.N) (i : S200000x64.Idx) :
    i ∈ ((cfg3.win 1).blk t).view.set ↔ ∀ a : Fin 2, win3_1.index t a * S10000x64.size a ≤ (i a).val
      ∧ (i a).val < win3_1.index t a * S10000x64.size a + S10000x64.size a := by
  show i ∈ ((View.whole main_v37).slice (win3_1.rect t)).set ↔ _
  rw [View.set_slice_whole, Rect.mem_set_unit]
  exact Iff.rfl

/-- Every row is in a tile that is written back: row r in tile r / 10000. -/
theorem coverFinishU (i : S200000x64.Idx) :
    ∃ t : Fin cfg3.N, (cfg3.win 1).flush t = true ∧ i ∈ ((cfg3.win 1).blk t).view.set := by
  have hi0 : (i 0).val < 200000 := (i 0).isLt
  have hi1 : (i 1).val < 64 := (i 1).isLt
  have hN : cfg3.N = 20 := N_3
  have hlt : (i 0).val / 10000 < cfg3.N := by rw [hN]; omega
  obtain ⟨-, -, eR, eC⟩ := mapsFinishU ⟨(i 0).val / 10000, hlt⟩
  refine ⟨⟨(i 0).val / 10000, hlt⟩, flush3_1 _, ?_⟩
  rw [memTileFinishU]
  intro a
  match a with
  | ⟨0, _⟩ =>
    show win3_1.index ⟨(i 0).val / 10000, hlt⟩ (0 : Fin 2) * 10000 ≤ (i 0).val
      ∧ (i 0).val < win3_1.index ⟨(i 0).val / 10000, hlt⟩ (0 : Fin 2) * 10000 + 10000
    rw [eR]; show (i 0).val / 10000 * 10000 ≤ (i 0).val ∧ (i 0).val < (i 0).val / 10000 * 10000 + 10000; omega
  | ⟨1, _⟩ =>
    show win3_1.index ⟨(i 0).val / 10000, hlt⟩ (1 : Fin 2) * 64 ≤ (i 1).val
      ∧ (i 1).val < win3_1.index ⟨(i 0).val / 10000, hlt⟩ (1 : Fin 2) * 64 + 64
    rw [eC]; omega

/-- AFTER THE LAUNCH the output array is the epilogue of the array it found. -/
theorem finalFinishU (c : Dev nD) : (dat3 V c).arrAt 1 cfg3.N = finishFinishU V c :=
  (dat3 V c).arrAt_eq_of_cover 1 (finishFinishU V c) (fun t _ => flushedFinishU V c t) (coverFinishU)

end Cert.KernelIdeal.Tiles

end
-- ==== Proof.TilesFinishI.lean ====
/-
  The items' epilogue launch, from tiles to the array.

  The launch walks 10 tiles of 10000 rows; at tile t it stages rows 10000·t … 10000·t+9999 of the summed features and
  writes back their leaky-rectified, row-normalised values to the same rows of the output. The epilogue's value at a
  row depends on that row only (its norm is taken along the row), so what tile t writes back is the restriction to
  its rows of the epilogue of the WHOLE array, and the tiles cover every row.
-/
import proofs.«131144_j6614249636664_2_alg».proof.Proof.Gen.KernelIdeal.Frame
import proofs.«131144_j6614249636664_2_alg».proof.Proof.SpecRows
import proofs.«131144_j6614249636664_2_alg».proof.Proof.Bodies
import proofs.«131144_j6614249636664_2_alg».proof.Proof.TilesDenseU
import Idealize.ShloMosaic.Lib.Pipeline.Value

set_option maxRecDepth 16384

noncomputable section

namespace Cert.KernelIdeal.Tiles

open Cert.KernelIdeal Cert.KernelIdeal.Gen
open Idealize.ShloMosaic Idealize.ShloMosaic.TcCoe Idealize.ShloMosaic.ValueIdx Idealize.SL.Sem
open Idealize.ShloMosaic.Pipeline (Dat)

-- the buffers' contents when the launch is entered: a parameter
variable (V : (c : Dev nD) → (b : Ref sig .tc) → Buf (Elt Ideal) ((c : Thread nD τ).loc b))

/-- The launch's printed block-index maps, decided over its 10 tiles: both tiles move down the rows with the tile number. -/
theorem mapsFinishI : ∀ t : Fin cfg4.N,
    win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, _)

/-- The epilogue of the array the launch finds. -/
abbrev finishFinishI (c : Dev nD) : S100000x64.Idx → EReal :=
  Cert.Spec.finish (N := 100000) (V c main_v32 : S100000x64.Idx → EReal)

/-- WHAT TILE t WRITES BACK is the restriction of the whole array's epilogue to the tile's rows. -/
theorem flushedFinishI (c : Dev nD) (t : Fin cfg4.N) :
    (dat4 V c).flushed 1 t = ((cfg4.win 1).blk t).view.read (Elt Ideal) (finishFinishI V c) := by
  show (cfg4.win 1).cut (grid4.coords t) ((dat4 V c).after 1 t) = _
  rw [after4_1]
  unfold out4_1
  rw [View.canon_unit_zero origin2]
  simp only [View.ld_unit_zero (S := S10000x64) origin2]
  rw [Cert.KernelIdeal.Bodies.post4]
  obtain ⟨e00, e01, e10, e11⟩ := mapsFinishI t
  have ht : t.val < 10 := lt_of_lt_of_eq t.isLt (N_4 : cfg4.N = 10)
  funext y
  obtain ⟨p, q, rfl⟩ : ∃ (p : Fin 10000) (q : Fin 64), y = ix2 p q := ⟨y 0, y 1, eq_ix2 y⟩
  have hp : p.val < 10000 := p.isLt
  have hq : q.val < 64 := q.isLt
  have hr : t.val * 10000 + p.val < 100000 := by omega
  have hemb : ((cfg4.win 1).blk t).view.emb (ix2 p q) = ix2 (⟨t.val * 10000 + p.val, hr⟩ : Fin 100000) q := by
    funext a; apply Fin.ext
    match a with
    | ⟨0, _⟩ => show win4_1.index t (0 : Fin 2) * 10000 + 1 * p.val = t.val * 10000 + p.val; omega
    | ⟨1, _⟩ => show win4_1.index t (1 : Fin 2) * 64 + 1 * q.val = q.val; omega
  show Cert.Spec.finish (N := 10000) (iblk4 V c 0 t) (ix2 p q)
    = finishFinishI V c (((cfg4.win 1).blk t).view.emb (ix2 p q))
  rw [hemb]
  refine Cert.Spec.finish_row _ _ p ⟨t.val * 10000 + p.val, hr⟩ q (fun k => ?_)
  · -- row p of the staged tile is row 10000·t + p of the array
    have hk : k.val < 64 := k.isLt
    show (V c main_v32 : S100000x64.Idx → EReal) (((cfg4.win 0).blk t).view.emb (ix2 p k)) = _
    refine congrArg _ ?_
    funext a; apply Fin.ext
    match a with
    | ⟨0, _⟩ => show win4_0.index t (0 : Fin 2) * 10000 + 1 * p.val = t.val * 10000 + p.val; omega
    | ⟨1, _⟩ => show win4_0.index t (1 : Fin 2) * 64 + 1 * k.val = k.val; omega

/-- An index of the output array is in tile t iff each coordinate is in the tile's range on its axis. -/
theorem memTileFinishI (t : Fin cfg4.N) (i : S100000x64.Idx) :
    i ∈ ((cfg4.win 1).blk t).view.set ↔ ∀ a : Fin 2, win4_1.index t a * S10000x64.size a ≤ (i a).val
      ∧ (i a).val < win4_1.index t a * S10000x64.size a + S10000x64.size a := by
  show i ∈ ((View.whole main_v38).slice (win4_1.rect t)).set ↔ _
  rw [View.set_slice_whole, Rect.mem_set_unit]
  exact Iff.rfl

/-- Every row is in a tile that is written back: row r in tile r / 10000. -/
theorem coverFinishI (i : S100000x64.Idx) :
    ∃ t : Fin cfg4.N, (cfg4.win 1).flush t = true ∧ i ∈ ((cfg4.win 1).blk t).view.set := by
  have hi0 : (i 0).val < 100000 := (i 0).isLt
  have hi1 : (i 1).val < 64 := (i 1).isLt
  have hN : cfg4.N = 10 := N_4
  have hlt : (i 0).val / 10000 < cfg4.N := by rw [hN]; omega
  obtain ⟨-, -, eR, eC⟩ := mapsFinishI ⟨(i 0).val / 10000, hlt⟩
  refine ⟨⟨(i 0).val / 10000, hlt⟩, flush4_1 _, ?_⟩
  rw [memTileFinishI]
  intro a
  match a with
  | ⟨0, _⟩ =>
    show win4_1.index ⟨(i 0).val / 10000, hlt⟩ (0 : Fin 2) * 10000 ≤ (i 0).val
      ∧ (i 0).val < win4_1.index ⟨(i 0).val / 10000, hlt⟩ (0 : Fin 2) * 10000 + 10000
    rw [eR]; show (i 0).val / 10000 * 10000 ≤ (i 0).val ∧ (i 0).val < (i 0).val / 10000 * 10000 + 10000; omega
  | ⟨1, _⟩ =>
    show win4_1.index ⟨(i 0).val / 10000, hlt⟩ (1 : Fin 2) * 64 ≤ (i 1).val
      ∧ (i 1).val < win4_1.index ⟨(i 0).val / 10000, hlt⟩ (1 : Fin 2) * 64 + 64
    rw [eC]; omega

/-- AFTER THE LAUNCH the output array is the epilogue of the array it found. -/
theorem finalFinishI (c : Dev nD) : (dat4 V c).arrAt 1 cfg4.N = finishFinishI V c :=
  (dat4 V c).arrAt_eq_of_cover 1 (finishFinishI V c) (fun t _ => flushedFinishI V c t) (coverFinishI)

end Cert.KernelIdeal.Tiles

end
-- ==== Proof.LibJoin2.lean ====
/-
  Reading a fold of host operations back THROUGH A TWO-PIECE CONCATENATION.

  What a buffer holds after a line of host operations is a fold; the library's one-pass simplifier
  (`after_results_simp`) rewrites each operation's result at its own buffer to its function's value and at any other
  buffer to what was there. It stops at a two-operand `stablehlo.concatenate`: the operation's function is
  `fun a b => concatenate t ax [⟨s₁, a⟩, ⟨s₂, b⟩] h`, and the simplifier does not rewrite an operand inside that list
  of (shape, contents) pairs (the side condition `h` is stated over the list), so the operands' own contents are
  left as folds. `join2` is the same concatenation with the two operands as plain arguments — the side condition is
  about the two shapes only — and `join2_def` turns the printed form into it; with that equation in the pass the
  operands are rewritten like any other argument. `read_back` is the library's pass with `join2_def` added, and with
  `cast_eq`, which removes the transports an outlined function's typed references put around a value (they are along
  equations that hold by reflexivity).
-/
import Idealize.ShloMosaic.Lib.StableHlo.Run

noncomputable section

namespace Cert.Lib.Join2

open Idealize.ShloMosaic

/-- The concatenation of two pieces along axis `a`, the pieces as plain arguments. -/
def join2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- The printed two-piece concatenation is `join2` of its pieces. -/
theorem join2_def {α : Type} (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = join2 t a s₁ s₂ h x₁ x₂ := rfl

end Cert.Lib.Join2

/-- The fold of a literal line of host operations at a literal buffer, read back to the operations' functions applied
    to the contents the line started from — in one pass, also through two-piece concatenations (left as `join2`) and
    through the transports of outlined functions' typed references. -/
macro "read_back" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result', Idealize.ShloMosaic.StableHlo.ternary_result', Idealize.ShloMosaic.StableHlo.quaternary_result', Idealize.ShloMosaic.StableHlo.reshape_result', Idealize.ShloMosaic.StableHlo.nary4_result', Idealize.ShloMosaic.StableHlo.nary_result', Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne', Idealize.ShloMosaic.StableHlo.ternary_result_ne', Idealize.ShloMosaic.StableHlo.quaternary_result_ne', Idealize.ShloMosaic.StableHlo.reshape_result_ne', Idealize.ShloMosaic.StableHlo.nary_result_ne', Idealize.ShloMosaic.StableHlo.unaryIndexed_result_ne', Idealize.ShloMosaic.StableHlo.binaryIndexed_result_ne',
      Cert.Lib.Join2.join2_def, cast_eq]))

end
-- ==== Proof.Fold.lean ====
/-
  The result buffer after the run, unwound to the ten argument arrays.

  The layer, as one function of the argument arrays (`layer`): the two feature tables go through the dense layer
  (weight transposed and narrowed on the host, bias reshaped to one row); the edges' endpoint rows are gathered (an index
  below zero wrapped once by the table's length); each edge's two messages are formed; the messages are summed into
  their destination rows on top of zeros and added to the dense tables; each sum goes through the epilogue; the two
  results are laid end to end, users first.

  The run's last boundary holds exactly that at the result buffer. Unwinding the fold: the last host operation joins
  the two epilogue launches' outputs; a launch's output array is its function of the arrays it found (the tile modules);
  a host stretch's result is its operation applied to what the stretch found; and an argument buffer holds, at every
  boundary where it is read, what the program was launched with (no host operation and no launch writes one).
-/
import proofs.«131144_j6614249636664_2_alg».proof.Proof.TilesDenseU
import proofs.«131144_j6614249636664_2_alg».proof.Proof.TilesDenseI
import proofs.«131144_j6614249636664_2_alg».proof.Proof.TilesEdge
import proofs.«131144_j6614249636664_2_alg».proof.Proof.TilesFinishU
import proofs.«131144_j6614249636664_2_alg».proof.Proof.TilesFinishI
import proofs.«131144_j6614249636664_2_alg».proof.Proof.LibJoin2
import Idealize.ShloMosaic.PureOps.Ideal

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.Spec (rowOf)

/-! ## The layer as one function of the ten argument arrays -/

/-- The weight as the launches stage it: transposed, then narrowed (the narrowing is the identity on extended reals). -/
def weightT (a : FVec Ideal S64x64 .f32) : FVec Ideal S64x64 .bf16 :=
  truncf .bf16 (transpose S64x64 [1, 0] a transposes_S64x64_S64x64_1_0) bitsLt_bf16_f32

/-- The bias as the launches stage it: reshaped to one row. -/
def biasRow (a : FVec Ideal S64 .f32) : FVec Ideal S1x64 .f32 :=
  fun i => shapeCast S1x64 a shapeCasts_S64_S1x64 i

/-- The users' rows at the edges' sources (an index below zero wrapped once by the table's 200000 rows). -/
def gatherU (a0 : FVec Ideal S200000x64 .f32) (a8 : IVec S1000000 32) : FVec Ideal S1000000x64 .f32 :=
  Host.gather gather_S200000x64_S1000000x1_S1000000x64_1_0_n_n_0_1_164 a0
    (broadcastInDim S1000000x1 ![0] bcast_S1000000_S1000000x1_0
      (select (cmpi .slt a8 (broadcastInDim S1000000 ![] bcast_S_S1000000 (constantI S_ 32 0#32)))
        (addi a8 (broadcastInDim S1000000 ![] bcast_S_S1000000 (constantI S_ 32 200000#32))) a8))

/-- The items' rows at the edges' destinations (an index below zero wrapped once by the table's 100000 rows). -/
def gatherI (a1 : FVec Ideal S100000x64 .f32) (a9 : IVec S1000000 32) : FVec Ideal S1000000x64 .f32 :=
  Host.gather gather_S100000x64_S1000000x1_S1000000x64_1_0_n_n_0_1_164 a1
    (broadcastInDim S1000000x1 ![0] bcast_S1000000_S1000000x1_0
      (select (cmpi .slt a9 (broadcastInDim S1000000 ![] bcast_S_S1000000 (constantI S_ 32 0#32)))
        (addi a9 (broadcastInDim S1000000 ![] bcast_S_S1000000 (constantI S_ 32 100000#32))) a9))

section Layer

variable (a0 : FVec Ideal S200000x64 .f32) (a1 : FVec Ideal S100000x64 .f32) (a2 : FVec Ideal S64x64 .f32)
  (a3 : FVec Ideal S64 .f32) (a4 : FVec Ideal S64x64 .f32) (a5 : FVec Ideal S64 .f32)
  (a6 a7 : FVec Ideal S1000000x1 .f32) (a8 a9 : IVec S1000000 32)

/-- The user→item messages. -/
def msgUI : FVec Ideal S1000000x64 .f32 :=
  Cert.Spec.message (E := 1000000) (gatherU a0 a8) (gatherU a0 a8) (gatherI a1 a9) a6
    (weightT a2) (rowOf (biasRow a3)) (weightT a4) (rowOf (biasRow a5))

/-- The item→user messages. -/
def msgIU : FVec Ideal S1000000x64 .f32 :=
  Cert.Spec.message (E := 1000000) (gatherI a1 a9) (gatherU a0 a8) (gatherI a1 a9) a7
    (weightT a2) (rowOf (biasRow a3)) (weightT a4) (rowOf (biasRow a5))

/-- The items' summed features: their dense table plus the user→item messages summed into their destination rows. -/
def sumI : FVec Ideal S100000x64 .f32 :=
  addf (Cert.Spec.dense (N := 100000) a1 (weightT a2) (rowOf (biasRow a3)))
    (Host.scatterAdd scatter_S100000x64_S1000000x1_S1000000x64_1_0_0_1
      (broadcastInDim S100000x64 ![] bcast_S_S100000x64 (constant S_ .f32 0x00000000#32))
      (broadcastInDim S1000000x1 ![0] bcast_S1000000_S1000000x1_0 a9) (msgUI a0 a1 a2 a3 a4 a5 a6 a8 a9))

/-- The users' summed features: their dense table plus the item→user messages summed into their source rows. -/
def sumU : FVec Ideal S200000x64 .f32 :=
  addf (Cert.Spec.dense (N := 200000) a0 (weightT a2) (rowOf (biasRow a3)))
    (Host.scatterAdd scatter_S200000x64_S1000000x1_S1000000x64_1_0_0_1
      (broadcastInDim S200000x64 ![] bcast_S_S200000x64 (constant S_ .f32 0x00000000#32))
      (broadcastInDim S1000000x1 ![0] bcast_S1000000_S1000000x1_0 a8) (msgIU a0 a1 a2 a3 a4 a5 a7 a8 a9))

/-- The layer's result: the users' epilogue over the items' epilogue. -/
def layer : FVec Ideal S300000x64 .f32 :=
  Cert.Lib.Join2.join2 S300000x64 0 S200000x64 S100000x64 concatenates_S200000x64_S100000x64_S300000x64_d0
    (Cert.Spec.finish (N := 200000) (sumU a0 a1 a2 a3 a4 a5 a7 a8 a9))
    (Cert.Spec.finish (N := 100000) (sumI a0 a1 a2 a3 a4 a5 a6 a8 a9))

end Layer

/-! ## The fold, boundary by boundary -/

variable (m : (ℓ : Loc nD τ sig) → Buf (Elt Ideal) ℓ) (ρ : Dev nD → PrngReg) (c : Dev nD)

set_option quotPrecheck false

local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "A9" => m ((c : Thread nD τ).loc main_arg9)

/-! ### An argument buffer holds what was launched, at every boundary where it is read -/

theorem arg0_at1 : W1 m ρ c (Proc.devRef .tc main_arg0) = m ((c : Thread nD τ).loc main_arg0) := by
  show StableHlo.after hostOps0 (W0 m ρ c) (Proc.devRef .tc main_arg0) = _
  read_back <;> rfl
theorem arg1_at1 : W1 m ρ c (Proc.devRef .tc main_arg1) = m ((c : Thread nD τ).loc main_arg1) := by
  show StableHlo.after hostOps0 (W0 m ρ c) (Proc.devRef .tc main_arg1) = _
  read_back <;> rfl
theorem arg2_at1 : W1 m ρ c (Proc.devRef .tc main_arg2) = m ((c : Thread nD τ).loc main_arg2) := by
  show StableHlo.after hostOps0 (W0 m ρ c) (Proc.devRef .tc main_arg2) = _
  read_back <;> rfl
theorem arg3_at1 : W1 m ρ c (Proc.devRef .tc main_arg3) = m ((c : Thread nD τ).loc main_arg3) := by
  show StableHlo.after hostOps0 (W0 m ρ c) (Proc.devRef .tc main_arg3) = _
  read_back <;> rfl
theorem arg4_at1 : W1 m ρ c (Proc.devRef .tc main_arg4) = m ((c : Thread nD τ).loc main_arg4) := by
  show StableHlo.after hostOps0 (W0 m ρ c) (Proc.devRef .tc main_arg4) = _
  read_back <;> rfl
theorem arg5_at1 : W1 m ρ c (Proc.devRef .tc main_arg5) = m ((c : Thread nD τ).loc main_arg5) := by
  show StableHlo.after hostOps0 (W0 m ρ c) (Proc.devRef .tc main_arg5) = _
  read_back <;> rfl
theorem arg6_at1 : W1 m ρ c (Proc.devRef .tc main_arg6) = m ((c : Thread nD τ).loc main_arg6) := by
  show StableHlo.after hostOps0 (W0 m ρ c) (Proc.devRef .tc main_arg6) = _
  read_back <;> rfl
theorem arg7_at1 : W1 m ρ c (Proc.devRef .tc main_arg7) = m ((c : Thread nD τ).loc main_arg7) := by
  show StableHlo.after hostOps0 (W0 m ρ c) (Proc.devRef .tc main_arg7) = _
  read_back <;> rfl
theorem arg8_at1 : W1 m ρ c (Proc.devRef .tc main_arg8) = m ((c : Thread nD τ).loc main_arg8) := by
  show StableHlo.after hostOps0 (W0 m ρ c) (Proc.devRef .tc main_arg8) = _
  read_back <;> rfl
theorem arg9_at1 : W1 m ρ c (Proc.devRef .tc main_arg9) = m ((c : Thread nD τ).loc main_arg9) := by
  show StableHlo.after hostOps0 (W0 m ρ c) (Proc.devRef .tc main_arg9) = _
  read_back <;> rfl
theorem arg0_at2 : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (arg0_at1 m ρ c)
theorem arg1_at2 : W2 m ρ c (Proc.devRef .tc main_arg1) = m ((c : Thread nD τ).loc main_arg1) :=
  (W2_of_ne m ρ c main_arg1 (by decide)).trans (arg1_at1 m ρ c)
theorem arg2_at2 : W2 m ρ c (Proc.devRef .tc main_arg2) = m ((c : Thread nD τ).loc main_arg2) :=
  (W2_of_ne m ρ c main_arg2 (by decide)).trans (arg2_at1 m ρ c)
theorem arg3_at2 : W2 m ρ c (Proc.devRef .tc main_arg3) = m ((c : Thread nD τ).loc main_arg3) :=
  (W2_of_ne m ρ c main_arg3 (by decide)).trans (arg3_at1 m ρ c)
theorem arg4_at2 : W2 m ρ c (Proc.devRef .tc main_arg4) = m ((c : Thread nD τ).loc main_arg4) :=
  (W2_of_ne m ρ c main_arg4 (by decide)).trans (arg4_at1 m ρ c)
theorem arg5_at2 : W2 m ρ c (Proc.devRef .tc main_arg5) = m ((c : Thread nD τ).loc main_arg5) :=
  (W2_of_ne m ρ c main_arg5 (by decide)).trans (arg5_at1 m ρ c)
theorem arg6_at2 : W2 m ρ c (Proc.devRef .tc main_arg6) = m ((c : Thread nD τ).loc main_arg6) :=
  (W2_of_ne m ρ c main_arg6 (by decide)).trans (arg6_at1 m ρ c)
theorem arg7_at2 : W2 m ρ c (Proc.devRef .tc main_arg7) = m ((c : Thread nD τ).loc main_arg7) :=
  (W2_of_ne m ρ c main_arg7 (by decide)).trans (arg7_at1 m ρ c)
theorem arg8_at2 : W2 m ρ c (Proc.devRef .tc main_arg8) = m ((c : Thread nD τ).loc main_arg8) :=
  (W2_of_ne m ρ c main_arg8 (by decide)).trans (arg8_at1 m ρ c)
theorem arg9_at2 : W2 m ρ c (Proc.devRef .tc main_arg9) = m ((c : Thread nD τ).loc main_arg9) :=
  (W2_of_ne m ρ c main_arg9 (by decide)).trans (arg9_at1 m ρ c)
theorem arg0_at3 : W3 m ρ c (Proc.devRef .tc main_arg0) = m ((c : Thread nD τ).loc main_arg0) := by
  show StableHlo.after hostOps1 (W2 m ρ c) (Proc.devRef .tc main_arg0) = _
  read_back; exact arg0_at2 m ρ c
theorem arg1_at3 : W3 m ρ c (Proc.devRef .tc main_arg1) = m ((c : Thread nD τ).loc main_arg1) := by
  show StableHlo.after hostOps1 (W2 m ρ c) (Proc.devRef .tc main_arg1) = _
  read_back; exact arg1_at2 m ρ c
theorem arg2_at3 : W3 m ρ c (Proc.devRef .tc main_arg2) = m ((c : Thread nD τ).loc main_arg2) := by
  show StableHlo.after hostOps1 (W2 m ρ c) (Proc.devRef .tc main_arg2) = _
  read_back; exact arg2_at2 m ρ c
theorem arg3_at3 : W3 m ρ c (Proc.devRef .tc main_arg3) = m ((c : Thread nD τ).loc main_arg3) := by
  show StableHlo.after hostOps1 (W2 m ρ c) (Proc.devRef .tc main_arg3) = _
  read_back; exact arg3_at2 m ρ c
theorem arg4_at3 : W3 m ρ c (Proc.devRef .tc main_arg4) = m ((c : Thread nD τ).loc main_arg4) := by
  show StableHlo.after hostOps1 (W2 m ρ c) (Proc.devRef .tc main_arg4) = _
  read_back; exact arg4_at2 m ρ c
theorem arg5_at3 : W3 m ρ c (Proc.devRef .tc main_arg5) = m ((c : Thread nD τ).loc main_arg5) := by
  show StableHlo.after hostOps1 (W2 m ρ c) (Proc.devRef .tc main_arg5) = _
  read_back; exact arg5_at2 m ρ c
theorem arg6_at3 : W3 m ρ c (Proc.devRef .tc main_arg6) = m ((c : Thread nD τ).loc main_arg6) := by
  show StableHlo.after hostOps1 (W2 m ρ c) (Proc.devRef .tc main_arg6) = _
  read_back; exact arg6_at2 m ρ c
theorem arg7_at3 : W3 m ρ c (Proc.devRef .tc main_arg7) = m ((c : Thread nD τ).loc main_arg7) := by
  show StableHlo.after hostOps1 (W2 m ρ c) (Proc.devRef .tc main_arg7) = _
  read_back; exact arg7_at2 m ρ c
theorem arg8_at3 : W3 m ρ c (Proc.devRef .tc main_arg8) = m ((c : Thread nD τ).loc main_arg8) := by
  show StableHlo.after hostOps1 (W2 m ρ c) (Proc.devRef .tc main_arg8) = _
  read_back; exact arg8_at2 m ρ c
theorem arg9_at3 : W3 m ρ c (Proc.devRef .tc main_arg9) = m ((c : Thread nD τ).loc main_arg9) := by
  show StableHlo.after hostOps1 (W2 m ρ c) (Proc.devRef .tc main_arg9) = _
  read_back; exact arg9_at2 m ρ c
theorem arg0_at4 : W4 m ρ c (Proc.devRef .tc main_arg0) = m ((c : Thread nD τ).loc main_arg0) :=
  (W4_of_ne m ρ c main_arg0 (by decide)).trans (arg0_at3 m ρ c)
theorem arg1_at4 : W4 m ρ c (Proc.devRef .tc main_arg1) = m ((c : Thread nD τ).loc main_arg1) :=
  ((W4_arr m ρ c 0).trans (((dat1 (V3 m ρ) c).arrAt_in 0 rfl _).trans (A_eq1 (V3 m ρ) c 0))).trans (arg1_at3 m ρ c)
theorem arg2_at4 : W4 m ρ c (Proc.devRef .tc main_arg2) = m ((c : Thread nD τ).loc main_arg2) :=
  (W4_of_ne m ρ c main_arg2 (by decide)).trans (arg2_at3 m ρ c)
theorem arg3_at4 : W4 m ρ c (Proc.devRef .tc main_arg3) = m ((c : Thread nD τ).loc main_arg3) :=
  (W4_of_ne m ρ c main_arg3 (by decide)).trans (arg3_at3 m ρ c)
theorem arg4_at4 : W4 m ρ c (Proc.devRef .tc main_arg4) = m ((c : Thread nD τ).loc main_arg4) :=
  (W4_of_ne m ρ c main_arg4 (by decide)).trans (arg4_at3 m ρ c)
theorem arg5_at4 : W4 m ρ c (Proc.devRef .tc main_arg5) = m ((c : Thread nD τ).loc main_arg5) :=
  (W4_of_ne m ρ c main_arg5 (by decide)).trans (arg5_at3 m ρ c)
theorem arg6_at4 : W4 m ρ c (Proc.devRef .tc main_arg6) = m ((c : Thread nD τ).loc main_arg6) :=
  (W4_of_ne m ρ c main_arg6 (by decide)).trans (arg6_at3 m ρ c)
theorem arg7_at4 : W4 m ρ c (Proc.devRef .tc main_arg7) = m ((c : Thread nD τ).loc main_arg7) :=
  (W4_of_ne m ρ c main_arg7 (by decide)).trans (arg7_at3 m ρ c)
theorem arg8_at4 : W4 m ρ c (Proc.devRef .tc main_arg8) = m ((c : Thread nD τ).loc main_arg8) :=
  (W4_of_ne m ρ c main_arg8 (by decide)).trans (arg8_at3 m ρ c)
theorem arg9_at4 : W4 m ρ c (Proc.devRef .tc main_arg9) = m ((c : Thread nD τ).loc main_arg9) :=
  (W4_of_ne m ρ c main_arg9 (by decide)).trans (arg9_at3 m ρ c)
theorem arg6_at5 : W5 m ρ c (Proc.devRef .tc main_arg6) = m ((c : Thread nD τ).loc main_arg6) := by
  show StableHlo.after hostOps2 (W4 m ρ c) (Proc.devRef .tc main_arg6) = _
  read_back; exact arg6_at4 m ρ c
theorem arg7_at5 : W5 m ρ c (Proc.devRef .tc main_arg7) = m ((c : Thread nD τ).loc main_arg7) := by
  show StableHlo.after hostOps2 (W4 m ρ c) (Proc.devRef .tc main_arg7) = _
  read_back; exact arg7_at4 m ρ c
theorem arg8_at5 : W5 m ρ c (Proc.devRef .tc main_arg8) = m ((c : Thread nD τ).loc main_arg8) := by
  show StableHlo.after hostOps2 (W4 m ρ c) (Proc.devRef .tc main_arg8) = _
  read_back; exact arg8_at4 m ρ c
theorem arg9_at5 : W5 m ρ c (Proc.devRef .tc main_arg9) = m ((c : Thread nD τ).loc main_arg9) := by
  show StableHlo.after hostOps2 (W4 m ρ c) (Proc.devRef .tc main_arg9) = _
  read_back; exact arg9_at4 m ρ c
theorem arg8_at6 : W6 m ρ c (Proc.devRef .tc main_arg8) = m ((c : Thread nD τ).loc main_arg8) :=
  (W6_of_ne m ρ c main_arg8 (by decide)).trans (arg8_at5 m ρ c)
theorem arg9_at6 : W6 m ρ c (Proc.devRef .tc main_arg9) = m ((c : Thread nD τ).loc main_arg9) :=
  (W6_of_ne m ρ c main_arg9 (by decide)).trans (arg9_at5 m ρ c)

/-! ### The users' dense table -/

theorem v1_at1 : W1 m ρ c (Proc.devRef .tc main_v1) = weightT A2 := by
  show StableHlo.after hostOps0 (W0 m ρ c) (Proc.devRef .tc main_v1) = _
  read_back <;> rfl
theorem v2_at1 : W1 m ρ c (Proc.devRef .tc main_v2) = biasRow A3 := by
  show StableHlo.after hostOps0 (W0 m ρ c) (Proc.devRef .tc main_v2) = _
  read_back <;> rfl
theorem v3_at2 : W2 m ρ c (Proc.devRef .tc main_v3) = Cert.Spec.dense (N := 200000) A0 (weightT A2) (rowOf (biasRow A3)) := by
  refine ((W2_arr m ρ c 3).trans (Cert.KernelIdeal.Tiles.finalDenseU (V1 m ρ) c)).trans ?_
  show Cert.Spec.dense (N := 200000) (W1 m ρ c (Proc.devRef .tc main_arg0)) (W1 m ρ c (Proc.devRef .tc main_v1))
    (rowOf (W1 m ρ c (Proc.devRef .tc main_v2))) = _
  rw [arg0_at1, v1_at1, v2_at1]
theorem v3_at3 : W3 m ρ c (Proc.devRef .tc main_v3) = Cert.Spec.dense (N := 200000) A0 (weightT A2) (rowOf (biasRow A3)) := by
  show StableHlo.after hostOps1 (W2 m ρ c) (Proc.devRef .tc main_v3) = _
  read_back; exact v3_at2 m ρ c
theorem v3_at4 : W4 m ρ c (Proc.devRef .tc main_v3) = Cert.Spec.dense (N := 200000) A0 (weightT A2) (rowOf (biasRow A3)) :=
  (W4_of_ne m ρ c main_v3 (by decide)).trans (v3_at3 m ρ c)
theorem v3_at5 : W5 m ρ c (Proc.devRef .tc main_v3) = Cert.Spec.dense (N := 200000) A0 (weightT A2) (rowOf (biasRow A3)) := by
  show StableHlo.after hostOps2 (W4 m ρ c) (Proc.devRef .tc main_v3) = _
  read_back; exact v3_at4 m ρ c
theorem v3_at6 : W6 m ρ c (Proc.devRef .tc main_v3) = Cert.Spec.dense (N := 200000) A0 (weightT A2) (rowOf (biasRow A3)) :=
  (W6_of_ne m ρ c main_v3 (by decide)).trans (v3_at5 m ρ c)

/-! ### The items' dense table -/

theorem v5_at3 : W3 m ρ c (Proc.devRef .tc main_v5) = weightT A2 := by
  show StableHlo.after hostOps1 (W2 m ρ c) (Proc.devRef .tc main_v5) = _
  read_back; rw [arg2_at2]; rfl
theorem v6_at3 : W3 m ρ c (Proc.devRef .tc main_v6) = biasRow A3 := by
  show StableHlo.after hostOps1 (W2 m ρ c) (Proc.devRef .tc main_v6) = _
  read_back; rw [arg3_at2]; rfl
theorem v7_at4 : W4 m ρ c (Proc.devRef .tc main_v7) = Cert.Spec.dense (N := 100000) A1 (weightT A2) (rowOf (biasRow A3)) := by
  refine ((W4_arr m ρ c 3).trans (Cert.KernelIdeal.Tiles.finalDenseI (V3 m ρ) c)).trans ?_
  show Cert.Spec.dense (N := 100000) (W3 m ρ c (Proc.devRef .tc main_arg1)) (W3 m ρ c (Proc.devRef .tc main_v5))
    (rowOf (W3 m ρ c (Proc.devRef .tc main_v6))) = _
  rw [arg1_at3, v5_at3, v6_at3]
theorem v7_at5 : W5 m ρ c (Proc.devRef .tc main_v7) = Cert.Spec.dense (N := 100000) A1 (weightT A2) (rowOf (biasRow A3)) := by
  show StableHlo.after hostOps2 (W4 m ρ c) (Proc.devRef .tc main_v7) = _
  read_back; exact v7_at4 m ρ c
theorem v7_at6 : W6 m ρ c (Proc.devRef .tc main_v7) = Cert.Spec.dense (N := 100000) A1 (weightT A2) (rowOf (biasRow A3)) :=
  (W6_of_ne m ρ c main_v7 (by decide)).trans (v7_at5 m ρ c)

/-! ### What the edge launch finds, and its two outputs -/

theorem v14_at5 : W5 m ρ c (Proc.devRef .tc main_v14) = gatherU A0 A8 := by
  show StableHlo.after hostOps2 (W4 m ρ c) (Proc.devRef .tc main_v14) = _
  read_back; rw [arg0_at4, arg8_at4]; rfl
theorem v21_at5 : W5 m ρ c (Proc.devRef .tc main_v21) = gatherI A1 A9 := by
  show StableHlo.after hostOps2 (W4 m ρ c) (Proc.devRef .tc main_v21) = _
  read_back; rw [arg1_at4, arg9_at4]; rfl
theorem v23_at5 : W5 m ρ c (Proc.devRef .tc main_v23) = weightT A2 := by
  show StableHlo.after hostOps2 (W4 m ρ c) (Proc.devRef .tc main_v23) = _
  read_back; rw [arg2_at4]; rfl
theorem v25_at5 : W5 m ρ c (Proc.devRef .tc main_v25) = weightT A4 := by
  show StableHlo.after hostOps2 (W4 m ρ c) (Proc.devRef .tc main_v25) = _
  read_back; rw [arg4_at4]; rfl
theorem v26_at5 : W5 m ρ c (Proc.devRef .tc main_v26) = biasRow A3 := by
  show StableHlo.after hostOps2 (W4 m ρ c) (Proc.devRef .tc main_v26) = _
  read_back; rw [arg3_at4]; rfl
theorem v27_at5 : W5 m ρ c (Proc.devRef .tc main_v27) = biasRow A5 := by
  show StableHlo.after hostOps2 (W4 m ρ c) (Proc.devRef .tc main_v27) = _
  read_back; rw [arg5_at4]; rfl

theorem v28_0_at6 : W6 m ρ c (Proc.devRef .tc main_v28_0) = msgUI A0 A1 A2 A3 A4 A5 A6 A8 A9 := by
  refine ((W6_arr m ρ c 8).trans (Cert.KernelIdeal.Tiles.finalUI (V5 m ρ) c)).trans ?_
  show Cert.Spec.message (E := 1000000) (W5 m ρ c (Proc.devRef .tc main_v14)) (W5 m ρ c (Proc.devRef .tc main_v14))
    (W5 m ρ c (Proc.devRef .tc main_v21)) (W5 m ρ c (Proc.devRef .tc main_arg6)) (W5 m ρ c (Proc.devRef .tc main_v23))
    (rowOf (W5 m ρ c (Proc.devRef .tc main_v26))) (W5 m ρ c (Proc.devRef .tc main_v25))
    (rowOf (W5 m ρ c (Proc.devRef .tc main_v27))) = _
  rw [v14_at5, v21_at5, arg6_at5, v23_at5, v26_at5, v25_at5, v27_at5]; rfl
theorem v28_1_at6 : W6 m ρ c (Proc.devRef .tc main_v28_1) = msgIU A0 A1 A2 A3 A4 A5 A7 A8 A9 := by
  refine ((W6_arr m ρ c 9).trans (Cert.KernelIdeal.Tiles.finalIU (V5 m ρ) c)).trans ?_
  show Cert.Spec.message (E := 1000000) (W5 m ρ c (Proc.devRef .tc main_v21)) (W5 m ρ c (Proc.devRef .tc main_v14))
    (W5 m ρ c (Proc.devRef .tc main_v21)) (W5 m ρ c (Proc.devRef .tc main_arg7)) (W5 m ρ c (Proc.devRef .tc main_v23))
    (rowOf (W5 m ρ c (Proc.devRef .tc main_v26))) (W5 m ρ c (Proc.devRef .tc main_v25))
    (rowOf (W5 m ρ c (Proc.devRef .tc main_v27))) = _
  rw [v14_at5, v21_at5, arg7_at5, v23_at5, v26_at5, v25_at5, v27_at5]; rfl

/-! ### The sums, the epilogues, the result -/

theorem v32_at7 : W7 m ρ c (Proc.devRef .tc main_v32) = sumI A0 A1 A2 A3 A4 A5 A6 A8 A9 := by
  show StableHlo.after hostOps3 (W6 m ρ c) (Proc.devRef .tc main_v32) = _
  read_back; rw [v7_at6, arg9_at6, v28_0_at6]; rfl
theorem v36_at7 : W7 m ρ c (Proc.devRef .tc main_v36) = sumU A0 A1 A2 A3 A4 A5 A7 A8 A9 := by
  show StableHlo.after hostOps3 (W6 m ρ c) (Proc.devRef .tc main_v36) = _
  read_back; rw [v3_at6, arg8_at6, v28_1_at6]; rfl
theorem v37_at8 : W8 m ρ c (Proc.devRef .tc main_v37) = Cert.Spec.finish (N := 200000) (sumU A0 A1 A2 A3 A4 A5 A7 A8 A9) := by
  refine ((W8_arr m ρ c 1).trans (Cert.KernelIdeal.Tiles.finalFinishU (V7 m ρ) c)).trans ?_
  show Cert.Spec.finish (N := 200000) (W7 m ρ c (Proc.devRef .tc main_v36)) = _
  rw [v36_at7]
theorem v32_at8 : W8 m ρ c (Proc.devRef .tc main_v32) = sumI A0 A1 A2 A3 A4 A5 A6 A8 A9 :=
  (W8_of_ne m ρ c main_v32 (by decide)).trans (v32_at7 m ρ c)
theorem v38_at9 : W9 m ρ c (Proc.devRef .tc main_v38) = Cert.Spec.finish (N := 100000) (sumI A0 A1 A2 A3 A4 A5 A6 A8 A9) := by
  refine ((W9_arr m ρ c 1).trans (Cert.KernelIdeal.Tiles.finalFinishI (V8 m ρ) c)).trans ?_
  show Cert.Spec.finish (N := 100000) (W8 m ρ c (Proc.devRef .tc main_v32)) = _
  rw [v32_at8]
theorem v37_at9 : W9 m ρ c (Proc.devRef .tc main_v37) = Cert.Spec.finish (N := 200000) (sumU A0 A1 A2 A3 A4 A5 A7 A8 A9) :=
  (W9_of_ne m ρ c main_v37 (by decide)).trans (v37_at8 m ρ c)

/-- THE RESULT BUFFER at the last boundary is the layer of the ten argument arrays. -/
theorem result_at10 : W10 m ρ c (Proc.devRef .tc main_v39) = layer A0 A1 A2 A3 A4 A5 A6 A7 A8 A9 := by
  show StableHlo.after hostOps5 (W9 m ρ c) (Proc.devRef .tc main_v39) = _
  read_back; rw [v37_at9, v38_at9]; rfl

end Cert.KernelIdeal.Fold

end
-- ==== Proof.RefStages.lean ====
/-
  The reference program's stages are the specification's functions.

  The reference computes, one whole-array operation at a time, two dense layers, two edge messages and two
  row-normalising epilogues. Read at one index (row p, column q) each of these chains of operations collapses to
  the closed form the specification gives:

  * a dense layer: the contraction of row p of the input with column q of the transposed weight,
    ∑ₖ x(p,k) · W(q,k), plus the bias entry b(q) (the bias is first laid out as a one-row matrix and then repeated
    down the rows, so at (p,q) it is read at q);
  * an edge message: the edge's norm weight (a one-column matrix repeated along the columns, so read at (p,0))
    times the sum of a dense layer of one gathered endpoint row and a second dense layer of the entrywise product of
    the two gathered endpoint rows;
  * an epilogue: the leaky rectifier entry by entry, then the entry divided by the larger of the floor word and the
    square root of (zero word + ∑ₖ rectified(p,k)²): the row sum is laid out as a one-column matrix, square-rooted,
    capped from below and repeated along the columns, so at (p,q) it is read at row p.

  Over the extended reals every operation of the reference is the extended-real operation of the same name by
  definition, and the specification uses the same association of sums and products, so once the index functions of
  the layout operations are identified with plain coordinates the two sides are the same term.
-/
import proofs.«131144_j6614249636664_2_alg».proof.Proof.Gen.ReferenceIdeal.Read
import proofs.«131144_j6614249636664_2_alg».proof.Proof.Spec
import Idealize.ShloMosaic.PureOps.Ideal
import Idealize.ShloMosaic.Lib.ValueIdx

noncomputable section

open scoped BigOperators

namespace Cert.ReferenceIdeal.RefStages

open Cert.ReferenceIdeal Cert.ReferenceIdeal.Read Idealize.ShloMosaic Idealize.ShloMosaic.ValueIdx

variable (x0 : (⟨S200000x64, .f32⟩ : BufTy).Contents (Elt Ideal)) (x1 : (⟨S100000x64, .f32⟩ : BufTy).Contents (Elt Ideal))
  (x2 : (⟨S64x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 x7 : (⟨S1000000x1, .f32⟩ : BufTy).Contents (Elt Ideal)) (x8 x9 : (⟨S1000000, .i32⟩ : BufTy).Contents (Elt Ideal))

/-- The first dense layer on the 200000 user rows. At (p,q) the reference contracts row p of the input with
    column q of the transposed weight, i.e. ∑ₖ x(p,k) · W(q,k), and adds the bias, which was laid out as one row and
    repeated down the rows and is therefore read at q; the specification's dense layer against the transposed weight
    is the same sum plus the same bias entry. -/
theorem dense_user :
    val_main_v4 (F := Ideal) x0 x2 x3 = Cert.Spec.dense (N := 200000) x0 (Cert.Spec.tr x2) x3 := by
  funext i
  obtain ⟨p, q, rfl⟩ : ∃ p q, i = ix2 p q := ⟨i 0, i 1, eq_ix2 i⟩
  have el : ∀ k : Fin 64, lidx_main_v1 (ix2 p q) k = ix2 p k := fun k => funext fun a => Fin.ext (by
    match a with | ⟨0, _⟩ => rfl | ⟨1, _⟩ => rfl)
  have er : ∀ k : Fin 64, idx_main_v0 (ridx_main_v1 (ix2 p q) k) = ix2 q k := fun k => funext fun a => Fin.ext (by
    match a with | ⟨0, _⟩ => rfl | ⟨1, _⟩ => rfl)
  have eb : idx_main_v2 (idx_main_v3 (ix2 p q)) = ix1 q := funext fun a => Fin.ext (by
    match a with | ⟨0, _⟩ => rfl)
  rw [val_main_v4_apply, val_main_v1_apply, val_main_v3_apply, val_main_v2_apply]
  simp only [val_main_v0_apply, el, er, eb, Ideal.addf_def]
  rfl

/-- The rectifier stage on the user rows, entry by entry: the compare against the zero word, the product with the
    slope word and the select are the specification's leaky rectifier of the entry. -/
theorem leaky_user (j : S200000x64.Idx) :
    val_main_v63 (F := Ideal) x0 x1 x2 x3 x4 x5 x7 x8 x9 j = Cert.Spec.leaky (val_main_v58 (F := Ideal) x0 x1 x2 x3 x4 x5 x7 x8 x9 j) := by
  rw [val_main_v63_apply, val_main_v60_apply, val_main_v62_apply, val_main_v59_apply, val_main_v61_apply,
    val_main_cst_4_apply, val_main_cst_5_apply]
  generalize val_main_v58 (F := Ideal) x0 x1 x2 x3 x4 x5 x7 x8 x9 j = h
  rfl

/-- The epilogue on the user rows. At (p,q): the rectified entry divided by the larger of the floor word and the square
    root of (zero word + ∑ₖ rectified(p,k)²). The row sum of squares is laid out as one column, square-rooted, capped
    from below and repeated along the columns, so column q reads the value of row p. -/
theorem finish_user :
    val_main_v68 (F := Ideal) x0 x1 x2 x3 x4 x5 x7 x8 x9 = Cert.Spec.finish (N := 200000) (val_main_v58 (F := Ideal) x0 x1 x2 x3 x4 x5 x7 x8 x9) := by
  funext i
  obtain ⟨p, q, rfl⟩ : ∃ p q, i = ix2 p q := ⟨i 0, i 1, eq_ix2 i⟩
  have es : ∀ k : Fin 64, idx_main_call1_v1 (idx_main_call1_v2 (idx_main_v67 (ix2 p q))) k = ix2 p k := fun k => funext fun a => Fin.ext (by
    match a with | ⟨0, _⟩ => rfl | ⟨1, _⟩ => rfl)
  rw [val_main_v68_apply, val_main_v67_apply, val_main_v66_apply, val_main_v64_apply, val_main_call1_v2_apply,
    val_main_call1_v1_apply, val_main_call1_cst_apply, val_main_v65_apply, val_main_cst_6_apply]
  simp only [val_main_call1_v0_apply, leaky_user, es]
  generalize val_main_v58 (F := Ideal) x0 x1 x2 x3 x4 x5 x7 x8 x9 = h
  rfl

/-- The same dense layer on the 100000 item rows: ∑ₖ x(p,k) · W(q,k) + b(q) at (p,q). -/
theorem dense_item :
    val_main_v9 (F := Ideal) x1 x2 x3 = Cert.Spec.dense (N := 100000) x1 (Cert.Spec.tr x2) x3 := by
  funext i
  obtain ⟨p, q, rfl⟩ : ∃ p q, i = ix2 p q := ⟨i 0, i 1, eq_ix2 i⟩
  have el : ∀ k : Fin 64, lidx_main_v6 (ix2 p q) k = ix2 p k := fun k => funext fun a => Fin.ext (by
    match a with | ⟨0, _⟩ => rfl | ⟨1, _⟩ => rfl)
  have er : ∀ k : Fin 64, idx_main_v5 (ridx_main_v6 (ix2 p q) k) = ix2 q k := fun k => funext fun a => Fin.ext (by
    match a with | ⟨0, _⟩ => rfl | ⟨1, _⟩ => rfl)
  have eb : idx_main_v7 (idx_main_v8 (ix2 p q)) = ix1 q := funext fun a => Fin.ext (by
    match a with | ⟨0, _⟩ => rfl)
  rw [val_main_v9_apply, val_main_v6_apply, val_main_v8_apply, val_main_v7_apply]
  simp only [val_main_v5_apply, el, er, eb, Ideal.addf_def]
  rfl

/-- The rectifier stage on the item rows, entry by entry, is the specification's leaky rectifier of the entry. -/
theorem leaky_item (j : S100000x64.Idx) :
    val_main_v73 (F := Ideal) x0 x1 x2 x3 x4 x5 x6 x8 x9 j = Cert.Spec.leaky (val_main_v41 (F := Ideal) x0 x1 x2 x3 x4 x5 x6 x8 x9 j) := by
  rw [val_main_v73_apply, val_main_v70_apply, val_main_v72_apply, val_main_v69_apply, val_main_v71_apply,
    val_main_cst_7_apply, val_main_cst_8_apply]
  generalize val_main_v41 (F := Ideal) x0 x1 x2 x3 x4 x5 x6 x8 x9 j = h
  rfl

/-- The epilogue on the item rows: the rectified entry divided by the larger of the floor word and the square root of
    (zero word + ∑ₖ rectified(p,k)²). -/
theorem finish_item :
    val_main_v78 (F := Ideal) x0 x1 x2 x3 x4 x5 x6 x8 x9 = Cert.Spec.finish (N := 100000) (val_main_v41 (F := Ideal) x0 x1 x2 x3 x4 x5 x6 x8 x9) := by
  funext i
  obtain ⟨p, q, rfl⟩ : ∃ p q, i = ix2 p q := ⟨i 0, i 1, eq_ix2 i⟩
  have es : ∀ k : Fin 64, idx_main_call3_v1 (idx_main_call3_v2 (idx_main_v77 (ix2 p q))) k = ix2 p k := fun k => funext fun a => Fin.ext (by
    match a with | ⟨0, _⟩ => rfl | ⟨1, _⟩ => rfl)
  rw [val_main_v78_apply, val_main_v77_apply, val_main_v76_apply, val_main_v74_apply, val_main_call3_v2_apply,
    val_main_call3_v1_apply, val_main_call3_cst_apply, val_main_v75_apply, val_main_cst_9_apply]
  simp only [val_main_call3_v0_apply, leaky_item, es]
  generalize val_main_v41 (F := Ideal) x0 x1 x2 x3 x4 x5 x6 x8 x9 = h
  rfl

/-- The message along an edge towards the item side. At (p,q) the reference multiplies the edge's norm weight (one
    column repeated along the columns, read at (p,0)) by the sum of two dense layers: ∑ₖ u(p,k) · W₁(q,k) + b₁(q) on
    the gathered user row u, and ∑ₖ (u(p,k) · v(p,k)) · W₂(q,k) + b₂(q) on the entrywise product of the gathered user
    row and the gathered item row v. The two gathered arrays stay opaque: only their values at (p,k) occur. -/
theorem message_ui :
    val_main_v37 (F := Ideal) x0 x1 x2 x3 x4 x5 x6 x8 x9 =
      Cert.Spec.message (E := 1000000) (val_main_v16 (F := Ideal) x0 x8) (val_main_v16 (F := Ideal) x0 x8) (val_main_v23 (F := Ideal) x1 x9) x6
        (Cert.Spec.tr x2) x3 (Cert.Spec.tr x4) x5 := by
  funext i
  obtain ⟨p, q, rfl⟩ : ∃ p q, i = ix2 p q := ⟨i 0, i 1, eq_ix2 i⟩
  have en : idx_main_v36 (ix2 p q) = ix2 p (0 : Fin 1) := funext fun a => Fin.ext (by
    match a with | ⟨0, _⟩ => rfl | ⟨1, _⟩ => rfl)
  have el1 : ∀ k : Fin 64, lidx_main_v26 (ix2 p q) k = ix2 p k := fun k => funext fun a => Fin.ext (by
    match a with | ⟨0, _⟩ => rfl | ⟨1, _⟩ => rfl)
  have er1 : ∀ k : Fin 64, idx_main_v25 (ridx_main_v26 (ix2 p q) k) = ix2 q k := fun k => funext fun a => Fin.ext (by
    match a with | ⟨0, _⟩ => rfl | ⟨1, _⟩ => rfl)
  have eb1 : idx_main_v27 (idx_main_v28 (ix2 p q)) = ix1 q := funext fun a => Fin.ext (by
    match a with | ⟨0, _⟩ => rfl)
  have el2 : ∀ k : Fin 64, lidx_main_v31 (ix2 p q) k = ix2 p k := fun k => funext fun a => Fin.ext (by
    match a with | ⟨0, _⟩ => rfl | ⟨1, _⟩ => rfl)
  have er2 : ∀ k : Fin 64, idx_main_v30 (ridx_main_v31 (ix2 p q) k) = ix2 q k := fun k => funext fun a => Fin.ext (by
    match a with | ⟨0, _⟩ => rfl | ⟨1, _⟩ => rfl)
  have eb2 : idx_main_v32 (idx_main_v33 (ix2 p q)) = ix1 q := funext fun a => Fin.ext (by
    match a with | ⟨0, _⟩ => rfl)
  rw [val_main_v37_apply, val_main_v36_apply, val_main_v35_apply, val_main_v29_apply, val_main_v26_apply,
    val_main_v28_apply, val_main_v27_apply, val_main_v34_apply, val_main_v31_apply, val_main_v33_apply,
    val_main_v32_apply]
  simp only [val_main_v24_apply, val_main_v25_apply, val_main_v30_apply, en, el1, er1, eb1, el2, er2, eb2,
    Ideal.addf_def, Ideal.mulf_def]
  generalize val_main_v16 (F := Ideal) x0 x8 = u
  generalize val_main_v23 (F := Ideal) x1 x9 = v
  rfl

/-- The message along an edge towards the user side: as above with the other norm weight, the first dense layer
    taken on the gathered item row v, ∑ₖ v(p,k) · W₁(q,k) + b₁(q), and the second on the same entrywise product
    u ⊙ v. -/
theorem message_iu :
    val_main_v54 (F := Ideal) x0 x1 x2 x3 x4 x5 x7 x8 x9 =
      Cert.Spec.message (E := 1000000) (val_main_v23 (F := Ideal) x1 x9) (val_main_v16 (F := Ideal) x0 x8) (val_main_v23 (F := Ideal) x1 x9) x7
        (Cert.Spec.tr x2) x3 (Cert.Spec.tr x4) x5 := by
  funext i
  obtain ⟨p, q, rfl⟩ : ∃ p q, i = ix2 p q := ⟨i 0, i 1, eq_ix2 i⟩
  have en : idx_main_v53 (ix2 p q) = ix2 p (0 : Fin 1) := funext fun a => Fin.ext (by
    match a with | ⟨0, _⟩ => rfl | ⟨1, _⟩ => rfl)
  have el1 : ∀ k : Fin 64, lidx_main_v43 (ix2 p q) k = ix2 p k := fun k => funext fun a => Fin.ext (by
    match a with | ⟨0, _⟩ => rfl | ⟨1, _⟩ => rfl)
  have er1 : ∀ k : Fin 64, idx_main_v42 (ridx_main_v43 (ix2 p q) k) = ix2 q k := fun k => funext fun a => Fin.ext (by
    match a with | ⟨0, _⟩ => rfl | ⟨1, _⟩ => rfl)
  have eb1 : idx_main_v44 (idx_main_v45 (ix2 p q)) = ix1 q := funext fun a => Fin.ext (by
    match a with | ⟨0, _⟩ => rfl)
  have el2 : ∀ k : Fin 64, lidx_main_v48 (ix2 p q) k = ix2 p k := fun k => funext fun a => Fin.ext (by
    match a with | ⟨0, _⟩ => rfl | ⟨1, _⟩ => rfl)
  have er2 : ∀ k : Fin 64, idx_main_v47 (ridx_main_v48 (ix2 p q) k) = ix2 q k := fun k => funext fun a => Fin.ext (by
    match a with | ⟨0, _⟩ => rfl | ⟨1, _⟩ => rfl)
  have eb2 : idx_main_v49 (idx_main_v50 (ix2 p q)) = ix1 q := funext fun a => Fin.ext (by
    match a with | ⟨0, _⟩ => rfl)
  rw [val_main_v54_apply, val_main_v53_apply, val_main_v52_apply, val_main_v46_apply, val_main_v43_apply,
    val_main_v45_apply, val_main_v44_apply, val_main_v51_apply, val_main_v48_apply, val_main_v50_apply,
    val_main_v49_apply]
  simp only [val_main_v24_apply, val_main_v42_apply, val_main_v47_apply, en, el1, er1, eb1, el2, er2, eb2,
    Ideal.addf_def, Ideal.mulf_def]
  generalize val_main_v16 (F := Ideal) x0 x8 = u
  generalize val_main_v23 (F := Ideal) x1 x9 = v
  rfl

end Cert.ReferenceIdeal.RefStages

end
-- ==== Proof.Bridge.lean ====
/-
  The layer computed through the five launches is the reference's result, as functions of the ten argument arrays.

  Both sides are built from the same three functions on the extended reals (the dense layer, the edge message, the
  epilogue) and the same host operations (two gathers, two summations into destination rows, two additions, one
  joining). What differs is only how the weight and the bias reach the dense layer:
  the launches are handed the weight transposed and narrowed — entry (k,j) of that is entry (j,k) of the weight, the
  narrowing changing nothing on the extended reals — and the bias reshaped to one row, whose entry (0,j) is entry j
  of the bias. With those two readings the two terms are one term: no law of arithmetic is used, and the arguments'
  finiteness is never needed.
-/
import proofs.«131144_j6614249636664_2_alg».proof.Proof.Fold
import proofs.«131144_j6614249636664_2_alg».proof.Proof.RefStages
import Idealize.ShloMosaic.Lib.ValueLayout

set_option maxRecDepth 16384

noncomputable section

namespace Cert.Bridge

open Cert.KernelIdeal Cert.KernelIdeal.Fold Cert.KernelIdeal.Facts₀ Cert.KernelIdeal.Facts
open Idealize.ShloMosaic Idealize.ShloMosaic.ValueIdx
open Cert.Spec (rowOf tr)

/-- The staged weight, entry (k,j), is the weight's entry (j,k). -/
theorem weightT_eq (a : FVec Ideal S64x64 .f32) : (weightT a : S64x64.Idx → EReal) = tr a := by
  funext i
  obtain ⟨k, j, rfl⟩ : ∃ (k j : Fin 64), i = ix2 k j := ⟨i 0, i 1, eq_ix2 i⟩
  show transpose S64x64 [1, 0] a transposes_S64x64_S64x64_1_0 (ix2 k j) = a (ix2 j k)
  exact transpose_ix2_apply a transposes_S64x64_S64x64_1_0 k j

/-- The staged one-row bias, read as a vector, is the bias. -/
theorem biasRow_eq (a : FVec Ideal S64 .f32) : rowOf (biasRow a) = (a : S64.Idx → EReal) := by
  funext j
  obtain ⟨q, rfl⟩ : ∃ q : Fin 64, j = ix1 q := ⟨j 0, eq_ix1 j⟩
  show shapeCast S1x64 a shapeCasts_S64_S1x64 (ix2 (0 : Fin 1) q) = a (ix1 q)
  exact shapeCast_a_1a_apply a shapeCasts_S64_S1x64 0 q

open Cert.ReferenceIdeal.Read Cert.ReferenceIdeal.RefStages

variable (a0 : FVec Ideal S200000x64 .f32) (a1 : FVec Ideal S100000x64 .f32) (a2 : FVec Ideal S64x64 .f32)
  (a3 : FVec Ideal S64 .f32) (a4 : FVec Ideal S64x64 .f32) (a5 : FVec Ideal S64 .f32)
  (a6 a7 : FVec Ideal S1000000x1 .f32) (a8 a9 : IVec S1000000 32)

/-- The two programs gather the same rows: the same operation on the same arrays. -/
theorem gatherU_eq : gatherU a0 a8 = val_main_v16 (F := Ideal) a0 a8 := rfl
theorem gatherI_eq : gatherI a1 a9 = val_main_v23 (F := Ideal) a1 a9 := rfl

/-- The user→item messages of the launches are the reference's. -/
theorem msgUI_eq : msgUI a0 a1 a2 a3 a4 a5 a6 a8 a9 = val_main_v37 (F := Ideal) a0 a1 a2 a3 a4 a5 a6 a8 a9 := by
  rw [message_ui]; unfold msgUI
  rw [gatherU_eq, gatherI_eq, weightT_eq, weightT_eq, biasRow_eq, biasRow_eq]

/-- The item→user messages of the launches are the reference's. -/
theorem msgIU_eq : msgIU a0 a1 a2 a3 a4 a5 a7 a8 a9 = val_main_v54 (F := Ideal) a0 a1 a2 a3 a4 a5 a7 a8 a9 := by
  rw [message_iu]; unfold msgIU
  rw [gatherU_eq, gatherI_eq, weightT_eq, weightT_eq, biasRow_eq, biasRow_eq]

/-- The items' summed features are the reference's. -/
theorem sumI_eq : sumI a0 a1 a2 a3 a4 a5 a6 a8 a9 = val_main_v41 (F := Ideal) a0 a1 a2 a3 a4 a5 a6 a8 a9 := by
  unfold sumI
  rw [msgUI_eq, weightT_eq, biasRow_eq, ← dense_item]
  rfl

/-- The users' summed features are the reference's. -/
theorem sumU_eq : sumU a0 a1 a2 a3 a4 a5 a7 a8 a9 = val_main_v58 (F := Ideal) a0 a1 a2 a3 a4 a5 a7 a8 a9 := by
  unfold sumU
  rw [msgIU_eq, weightT_eq, biasRow_eq, ← dense_user]
  rfl

/-- THE LAYER through the launches IS the reference's result. -/
theorem layer_eq : layer a0 a1 a2 a3 a4 a5 a6 a7 a8 a9 = val_main_v79 (F := Ideal) a0 a1 a2 a3 a4 a5 a6 a7 a8 a9 := by
  unfold layer
  rw [sumU_eq, sumI_eq, ← finish_user, ← finish_item]
  rfl

end Cert.Bridge

end
-- ==== Proof.lean ====
/-
  One bipartite message-passing layer — a dense projection of both node tables, per-edge messages summed into their
  destination nodes, a leaky rectifier and a row normalisation — computed by five tiled launches among host
  operations, against the same layer written as whole-array operations.

  At the extended reals the two programs compute ONE function of the ten argument arrays:
    * a launch that walks row tiles and applies, to each tile, a function whose value at a row depends on that row
      only, leaves in its output array that function of the whole array (the tiles cover every row);
    * the three such functions here are the dense layer  ∑ₖ x(r,k)·Wᵗ(k,j) + b(j), the edge message
      n(e)·(dense of one endpoint's row + second dense of the endpoints' entrywise product), and the epilogue
      leaky(h)/max(‖leaky(h) row‖, floor);
    * between the launches both programs apply the same host operations to the same arrays — two gathers of endpoint
      rows, two sums of messages into destination rows on top of zeros, two additions, one joining end to end;
    * narrowing a float's format is the identity on the extended reals, and the matrix unit's product into a zero
      accumulator is the sum of products the reference's contraction is.
  Nothing in this uses a law that fails at infinity (no distributivity, no cancelling), so the arguments' finiteness
  is not used. The frames of the two kernel programs are their generated launches; the reference's frame is its
  generated run with the result dropped; the idealized kernel is the printed kernel read at the extended reals with
  no rewrite applied, so there is nothing to preserve beyond that.
-/
import proofs.«131144_j6614249636664_2_alg».proof.Defs
import proofs.«131144_j6614249636664_2_alg».proof.Proof.Gen.Kernel
import proofs.«131144_j6614249636664_2_alg».proof.Proof.Gen.Kernel.Frame
import proofs.«131144_j6614249636664_2_alg».proof.Proof.Gen.KernelIdeal
import proofs.«131144_j6614249636664_2_alg».proof.Proof.Gen.KernelIdeal.Frame
import proofs.«131144_j6614249636664_2_alg».proof.Proof.Gen.ReferenceIdeal
import proofs.«131144_j6614249636664_2_alg».proof.Proof.Gen.ReferenceIdeal.Run
import proofs.«131144_j6614249636664_2_alg».proof.Proof.Gen.Pre_finite_inputs
import proofs.«131144_j6614249636664_2_alg».proof.Proof.KRun
import proofs.«131144_j6614249636664_2_alg».proof.Proof.Fold
import proofs.«131144_j6614249636664_2_alg».proof.Proof.Bridge
import Idealize.ShloMosaic.Adequacy
import Idealize.ShloMosaic.Init

noncomputable section

namespace Cert.Proof

open Idealize.ShloMosaic Idealize.ShloMosaic.TcCoe Idealize.SL.Sem

/-- The printed kernel program runs and keeps its arguments: its launch over the ten segments. -/
theorem frame_kernel : Cert.frame_Kernel := fun m ρ _ => Cert.Kernel.Gen.frame m ρ

/-- The same program read at the extended reals runs and keeps its arguments. -/
theorem frame_kernelIdeal : Cert.frame_KernelIdeal := fun m ρ _ => Cert.KernelIdeal.Gen.frame m ρ

/-- The reference runs and keeps its arguments: its run, the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the idealized kernel. -/
theorem preserves : Cert.preserves_Kernel_KernelIdeal := trivial

/-- From memories that agree on the ten arguments both programs end with the result buffer at the layer of those
    arguments: the kernel by its run unwound to the argument arrays, the reference by its generated run, and the two
    terms are one function. -/
theorem algebraic : Cert.algebraic_KernelIdeal_ReferenceIdeal := by
  intro m ρ m' ρ' _ hagree
  refine ⟨fun c => Cert.KernelIdeal.Gen.W10 m ρ c (Proc.devRef .tc Cert.KernelIdeal.main_v39),
    Cert.KernelIdeal.KRun.run_result m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Gen.W10 m ρ c (Proc.devRef .tc Cert.KernelIdeal.main_v39)
  rw [Cert.ReferenceIdeal.Read.val_main_v79_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2,
    Cert.KernelIdeal.Fold.result_at10, Cert.Bridge.layer_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
